-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1000x1000x1 : Shape := ⟨3, ![1000, 1000, 1]⟩
abbrev S4096 : Shape := ⟨1, ![4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S1000x1000x1 : S_.BroadcastsInDim S1000x1000x1 (![] : Fin 0 → Fin S1000x1000x1.rank)
  reducesTo_S1000x1000x1_S_d0_1_2 : S1000x1000x1.ReducesTo [0, 1, 2] S_

variable [Facts]

def fn {F : FTy → Type} [FloatOps F] (main_arg0 : FVec F S4096x8192 .f32) (main_arg1 : FVec F S1000x1000x1 .f32) (main_arg2 : IVec S4096 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S1000x1000x1 .f32 := Host.absf main_arg1
  let main_cst_0 : FVec F S_ .f32 := constant S_ .f32 0x7F800000#32
  let main_v5 : FVec F S1000x1000x1 .f32 := broadcastInDim S1000x1000x1 ![] bcast_S_S1000x1000x1 main_cst_0
  let main_v6 : IVec S1000x1000x1 1 := cmpf .olt main_v4 main_v5
  let main_c_1 : IVec S_ 1 := constantI S_ 1 1#1
  let main_v7 : IVec S_ 1 := (fun x v => Host.reduce IntOp.andi x v reducesTo_S1000x1000x1_S_d0_1_2 h_S_) main_v6 main_c_1
  let main_v8 : IVec S_ 1 := andi main_v3 main_v7
  main_v8
-- ==== Kernel.lean ====
abbrev S4096x8192 : Shape := ⟨2, ![4096, 8192]⟩
abbrev S1000x1000x1 : Shape := ⟨3, ![1000, 1000, 1]⟩
abbrev S4096 : Shape := ⟨1, ![4096]⟩
abbrev S1x1000x1 : Shape := ⟨3, ![1, 1000, 1]⟩
abbrev S1000 : Shape := ⟨1, ![1000]⟩
abbrev S_ : Shape := ⟨0, ![]⟩
abbrev S4096x1 : Shape := ⟨2, ![4096, 1]⟩
abbrev S1x1 : Shape := ⟨2, ![1, 1]⟩
abbrev S4096x1000 : Shape := ⟨2, ![4096, 1000]⟩
abbrev S512x2048 : Shape := ⟨2, ![512, 2048]⟩
abbrev S512x1 : Shape := ⟨2, ![512, 1]⟩
abbrev S512x1000 : Shape := ⟨2, ![512, 1000]⟩
abbrev S512 : Shape := ⟨1, ![512]⟩

abbrev nBuf : Space → Nat
  | .hbm => 21
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S1000x1000x1, .f32⟩
  | .hbm, ⟨2, _⟩ => ⟨S4096, .i32⟩
  | .hbm, ⟨3, _⟩ => ⟨S1x1000x1, .f32⟩
  | .hbm, ⟨4, _⟩ => ⟨S1000, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x1, .f32⟩
  | .hbm, ⟨19, _⟩ => ⟨S1x1, .f32⟩
  | .hbm, ⟨20, _⟩ => ⟨S4096x1000, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S1x1, .f32⟩
  | .local _ .vmem, ⟨5, _⟩ => ⟨S512x1000, .f32⟩
  | .local _ .vmem, ⟨6, _⟩ => ⟨S512x1000, .f32⟩
  | .local _ .vmem, ⟨7, _⟩ => ⟨S512x1, .f32⟩
  | .local _ .vmem, ⟨8, _⟩ => ⟨S512x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S1000x1000x1_S1x1000x1_0_0_0 : S1000x1000x1.Slices ![0, 0, 0] S1x1000x1
  shapeCasts_S1x1000x1_S1000 : S1x1000x1.ShapeCasts S1000
  bcast_S_S4096 : S_.BroadcastsInDim S4096 (![] : Fin 0 → Fin S4096.rank)
  bcast_S4096_S4096x1_0 : S4096.BroadcastsInDim S4096x1 (![0] : Fin 1 → Fin S4096x1.rank)
  reducesTo_S4096_S_d0 : S4096.ReducesTo [0] S_
  h_S_ : 0 < S_.numel
  shapeCasts_S4096_S4096x1 : S4096.ShapeCasts S4096x1
  shapeCasts_S_S1x1 : S_.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  broadcasts_S512x1_S512x1000 : S512x1.Broadcasts S512x1000
  inb_S512x1000_S512x1000_0_0 : ∀ a, (![0, 0] : Fin 2 → Nat) a + S512x1000.size a ≤ S512x1000.size a
  h_S512x1000 : 0 < S512x1000.numel
  gather_S1000_S4096x1_S4096_n_0_n_n_0_1_1_wf : GatherDims.WF S1000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .f32 = 32 ∨ (Rect.block (s := S4096x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S4096x1000.size a
  hwx0_3 : ∀ i : grid0.Coords, EltTy.bits .f32 = 32 ∨ (Rect.block (s := S4096x1000) S512x1000.size (cc0_transform_3 i) (hinb0_3 i)).WholeWords (EltTy.packing .f32)

variable [Facts₀]

def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S1000x1000x1 : Shape := ⟨3, ![1000, 1000, 1]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S1000x4096 : Shape := ⟨2, ![1000, 4096]⟩
abbrev S1x4096 : Shape := ⟨2, ![1, 4096]⟩
abbrev S4096x1000 : Shape := ⟨2, ![4096, 1000]⟩

abbrev nBuf : Space → Nat
  | .hbm => 50
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1000x1000x1, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1, .i32⟩
  | .hbm, ⟨15, _⟩ => ⟨S4096x2, .i32⟩
  | .hbm, ⟨16, _⟩ => ⟨S1000x4096, .f32⟩
  | .hbm, ⟨17, _⟩ => ⟨S1x4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096x1, .f32⟩
  | .hbm, ⟨37, _⟩ => ⟨S4096x8192, .f32⟩
  | .hbm, ⟨38, _⟩ => ⟨S4096x8192, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S1x4096, .f32⟩
  | .hbm, ⟨48, _⟩ => ⟨S1000x4096, .f32⟩
  | .hbm, ⟨49, _⟩ => ⟨S4096x1000, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S1000x4096_S1x4096_0_0 : S1000x4096.Slices ![0, 0] S1x4096
  shapeCasts_S1x4096_S4096 : S1x4096.ShapeCasts S4096
  reducesTo_S4096x8192_S4096_d1 : S4096x8192.ReducesTo [1] S4096
  h_S_ : 0 < S_.numel
  reducesTo_S4096_S_d0 : S4096.ReducesTo [0] S_
  bcast_S4096x1_S4096x8192_0_1 : S4096x1.BroadcastsInDim S4096x8192 (![0, 1] : Fin 2 → Fin S4096x8192.rank)
  bcast_S4096_S1x4096_1 : S4096.BroadcastsInDim S1x4096 (![1] : Fin 1 → Fin S1x4096.rank)
  bcast_S1x4096_S1000x4096_0_1 : S1x4096.BroadcastsInDim S1000x4096 (![0, 1] : Fin 2 → Fin S1000x4096.rank)
  transposes_S1000x4096_S4096x1000_1_0 : S1000x4096.Transposes [1, 0] S4096x1000
  gather_S1000x1000x1_S4096x2_S1000x4096_0_12_n_n_12_1_100011_wf : GatherDims.WF S1000x1000x1 S4096x2 S1000x4096 [0] [1, 2] [] [1, 2] [] 1 ![1000, 1, 1]

variable [Facts₀]

def gather_S1000x1000x1_S4096x2_S1000x4096_0_12_n_n_12_1_100011 : GatherDims S1000x1000x1 S4096x2 S1000x4096 where
  offsetDims := [0]
  collapsedSliceDims := [1, 2]
  operandBatchingDims := []
  startIndicesBatchingDims := []
  startIndexMap := [1, 2]
  indexVectorDim := 1
  sliceSizes := ![1000, 1, 1]
  wf := gather_S1000x1000x1_S4096x2_S1000x4096_0_12_n_n_12_1_100011_wf

class Facts : Prop extends Facts₀ where

variable [Facts]
-- ==== Proof.KernelPieces.lean ====
/-
  What each control case of the kernel body leaves behind, as a pure function of what it was given.

  The body keeps two column accumulators (one entry per row of the tile) across the four column steps of a row
  tile: the running row sum and the running row sum of squares. In every case it adds this step's contribution
  to each accumulator; at the first column step it first resets both to zero, and at the last column step it
  additionally computes the fitted value per row from the two finished accumulators, the row's label value and
  the label mean, and fills the whole output tile with it (every column of a row holds that row's value).

  Stated here for an arbitrary number format: with `sumStep x acc` the row-sum step, `sqStep x acc` the
  sum-of-squares step, `zeroCol` the reset value and `fitTile s q y ybar` the output tile,
    first step : accumulators become `sumStep x zeroCol`, `sqStep x zeroCol`;
    middle step: `sumStep x s`, `sqStep x q` over the previous `s`, `q`;
    last step  : the same, and the output tile is `fitTile (sumStep x s) (sqStep x q) y ybar`.
  Each is read off the stores the body performs: the last store into a buffer through its whole extent decides its
  contents, and a load of a buffer just stored whole reads that store's value.
-/
import proofs.«159984_j39934605918594_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer rectangle. -/
theorem hz : (![0, 0] : Fin 2 → Nat) = fun _ => 0 := funext fun a => by fin_cases a <;> rfl

variable (c : Dev nD) (i : grid0.Coords) (arg2 : Memref sig .tc .vmem S512x2048 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S512x1000 .f32) (harg5 : arg5.IsWhole) (arg6 : Memref sig .tc .vmem S512x1 .f32) (harg6 : arg6.IsWhole) (arg7 : Memref sig .tc .vmem S512x1 .f32) (harg7 : arg7.IsWhole)
  (x0 : Vec F S512x2048 .f32) (x1 : Vec F S512x1 .f32) (x2 : Vec F S1x1 .f32) (xs0 xs1 : Vec F S512x1 .f32)

/-- First column step, row sums: reset, then this step's contribution. -/
theorem sum_first (hc0 : cond0_0 i) (hc1 : ¬cond0_1 i) :
    sout0_A_0 c i arg2 harg2 arg3 harg3 arg4 harg4 arg5 harg5 arg6 harg6 arg7 harg7 hc0 hc1 x0 x1 x2 = k0_pay3 x0 k0_pay1 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, View.ld_unit_zero (S := S512x2048) hz]

/-- First column step, sums of squares: reset, then this step's contribution. -/
theorem sq_first (hc0 : cond0_0 i) (hc1 : ¬cond0_1 i) :
    sout0_A_1 c i arg2 harg2 arg3 harg3 arg4 harg4 arg5 harg5 arg6 harg6 arg7 harg7 hc0 hc1 x0 x1 x2 = k0_pay4 x0 k0_pay2 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S512x1) hz, View.readCov_unit_zero (S := S512x1) _ hz]
  simp only [View.readAt_eq_ld, harg2.read_unread, View.ld_unit_zero (S := S512x2048) hz]

/-- A middle column step, row sums: the previous value plus this step's contribution. -/
theorem sum_mid (hc0 : ¬cond0_0 i) (hc1 : ¬cond0_1 i) :
    sout0_B_0 c i arg2 harg2 arg3 harg3 arg4 harg4 arg5 harg5 arg6 harg6 arg7 harg7 hc0 hc1 x0 x1 x2 xs0 xs1 = k0_pay3 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg6.read_unread, View.ld_unit_zero (S := S512x2048) hz, View.ld_unit_zero (S := S512x1) hz]

/-- A middle column step, sums of squares. -/
theorem sq_mid (hc0 : ¬cond0_0 i) (hc1 : ¬cond0_1 i) :
    sout0_B_1 c i arg2 harg2 arg3 harg3 arg4 harg4 arg5 harg5 arg6 harg6 arg7 harg7 hc0 hc1 x0 x1 x2 xs0 xs1 = k0_pay4 x0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg7.read_unread, View.ld_unit_zero (S := S512x2048) hz, View.ld_unit_zero (S := S512x1) hz]

/-- The last column step, row sums. -/
theorem sum_last (hc0 : ¬cond0_0 i) (hc1 : cond0_1 i) :
    sout0_C_0 c i arg2 harg2 arg3 harg3 arg4 harg4 arg5 harg5 arg6 harg6 arg7 harg7 hc0 hc1 x0 x1 x2 xs0 xs1 = k0_pay3 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg6.read_unread, View.ld_unit_zero (S := S512x2048) hz, View.ld_unit_zero (S := S512x1) hz]

/-- The last column step, sums of squares. -/
theorem sq_last (hc0 : ¬cond0_0 i) (hc1 : cond0_1 i) :
    sout0_C_1 c i arg2 harg2 arg3 harg3 arg4 harg4 arg5 harg5 arg6 harg6 arg7 harg7 hc0 hc1 x0 x1 x2 xs0 xs1 = k0_pay4 x0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg7.read_unread, View.ld_unit_zero (S := S512x2048) hz, View.ld_unit_zero (S := S512x1) hz]

/-- The last column step, the output tile: the fitted values from the two accumulators as this step leaves them,
    the label column and the label mean. -/
theorem tile_last (hc0 : ¬cond0_0 i) (hc1 : cond0_1 i) :
    out0_C_3 c i arg2 harg2 arg3 harg3 arg4 harg4 arg5 harg5 arg6 harg6 arg7 harg7 hc0 hc1 x0 x1 x2 xs0 xs1 = k0_pay5 (k0_pay3 x0 xs0) (k0_pay4 x0 xs1) x1 x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readCov_unit_zero (S := S512x1) _ hz, View.readAt_eq_ld, harg2.read_unread, harg3.read_unread, harg4.read_unread,
    harg6.read_unread, harg7.read_unread, View.ld_unit_zero (S := S512x2048) hz, View.ld_unit_zero (S := S512x1) hz,
    View.ld_unit_zero (S := S1x1) hz]

end Cert.KernelIdeal.Pieces

end
-- ==== Proof.KernelSteps.lean ====
/-
  What the two accumulators and the output tile hold after each grid point, as one step over the point before.

  The grid runs row tiles outermost and the four column steps of a tile innermost, so point `t` is column step
  `t mod 4` of row tile `t / 4`. After point `t`:
    * at a first column step (`t mod 4 = 0`) each accumulator is its step applied to the reset value;
    * at any other step it is its step applied to what the point before left;
    * at a last column step (`t mod 4 = 3`) the output tile is the fitted-value tile of the two accumulators as
      that same point leaves them, the tile of labels and the label mean.
  These hold for any number format; they only select the control case of the point and read its stores back.
-/
import proofs.«159984_j39934605918594_2_alg».proof.Proof.KernelPieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- Row sums after a first column step. -/
theorem sum_first (c : Dev nD) (t : Fin cfg0.N) (h0 : t.val % 4 = 0) :
    (outsAt0 m c t.val t.isLt).2.1 = k0_pay3 (iblk m c 0 t) k0_pay1 := by
  have h1 : ¬t.val % 4 = 3 := by omega
  rw [outsAt0_A m c t h0 h1]
  exact Pieces.sum_first c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((hcond0_0 t).mpr h0) (fun h => h1 ((hcond0_1 t).mp h))

/-- Sums of squares after a first column step. -/
theorem sq_first (c : Dev nD) (t : Fin cfg0.N) (h0 : t.val % 4 = 0) :
    (outsAt0 m c t.val t.isLt).2.2 = k0_pay4 (iblk m c 0 t) k0_pay2 := by
  have h1 : ¬t.val % 4 = 3 := by omega
  rw [outsAt0_A m c t h0 h1]
  exact Pieces.sq_first c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) ((hcond0_0 t).mpr h0) (fun h => h1 ((hcond0_1 t).mp h))

/-- Row sums after any later column step: the step over what the point before left. -/
theorem sum_next (c : Dev nD) (t : Fin cfg0.N) (h0 : ¬t.val % 4 = 0) :
    (outsAt0 m c t.val t.isLt).2.1 = k0_pay3 (iblk m c 0 t) (outsAt0 m c (t.val - 1) (Nat.lt_of_le_of_lt (Nat.sub_le _ _) t.isLt)).2.1 := by
  by_cases h1 : t.val % 4 = 3
  · have h := congrArg (fun p => p.2.1) (outsAt0_C m c t h0 h1)
    dsimp only at h
    exact h.trans (Pieces.sum_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))
  · have h := congrArg (fun p => p.2.1) (outsAt0_B m c t h0 h1)
    dsimp only at h
    exact h.trans (Pieces.sum_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)))

/-- Sums of squares after any later column step. -/
theorem sq_next (c : Dev nD) (t : Fin cfg0.N) (h0 : ¬t.val % 4 = 0) :
    (outsAt0 m c t.val t.isLt).2.2 = k0_pay4 (iblk m c 0 t) (outsAt0 m c (t.val - 1) (Nat.lt_of_le_of_lt (Nat.sub_le _ _) t.isLt)).2.2 := by
  by_cases h1 : t.val % 4 = 3
  · have h := congrArg (fun p => p.2.2) (outsAt0_C m c t h0 h1)
    dsimp only at h
    exact h.trans (Pieces.sq_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))
  · have h := congrArg (fun p => p.2.2) (outsAt0_B m c t h0 h1)
    dsimp only at h
    exact h.trans (Pieces.sq_mid c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) (fun h => h1 ((hcond0_1 t).mp h)))

/-- The output tile after a last column step: the fitted values of the accumulators as that point leaves them. -/
theorem tile_last (c : Dev nD) (t : Fin cfg0.N) (h1 : t.val % 4 = 3) :
    (outsAt0 m c t.val t.isLt).1
      = k0_pay5 (outsAt0 m c t.val t.isLt).2.1 (outsAt0 m c t.val t.isLt).2.2 (iblk m c 1 t) (iblk m c 2 t) := by
  have h0 : ¬t.val % 4 = 0 := by omega
  have h := congrArg (fun p => p.1) (outsAt0_C m c t h0 h1)
  dsimp only at h
  refine (h.trans (Pieces.tile_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) ((hcond0_1 t).mpr h1))).trans ?_
  exact (congrArg₂ (fun (a b : Vec F S512x1 .f32) => k0_pay5 a b (iblk m c 1 t) (iblk m c 2 t)) (sum_next m c t h0) (sq_next m c t h0)).symm

end Cert.KernelIdeal.Steps

end
-- ==== Proof.LibCenteredSums.lean ====
/-
  Centred sums from raw moments, over a finite index type, in the reals.

  For a finite family `x` and any number `a`:
    * the sum of the squared deviations `(x j - a)` is the sum of squares minus `2 a` times the sum plus
      `n a` times `a`, where `n` is the number of terms (the square expanded term by term);
    * the sum of the deviations, each scaled by one factor `d`, is `d` times (the sum minus `n a`).
  Both are distributivity, so they hold in the reals and fail at infinities of the extended reals; a caller
  over the extended reals first shows its entries are real.
-/
import Mathlib.Algebra.BigOperators.Ring.Finset
import Mathlib.Algebra.BigOperators.Group.Finset.Basic
import Mathlib.Data.Real.Basic
import Mathlib.Tactic.Ring

namespace CenteredSums

open Finset

variable {ι : Type*} [Fintype ι]

/-- The sum of squared deviations from `a`, expanded: `Σ (x−a)² = Σ x² − (2a)·Σ x + (n·a)·a`. -/
theorem sum_sq_dev (x : ι → ℝ) (a : ℝ) :
    ∑ j, (x j - a) * (x j - a)
      = (∑ j, x j * x j) - (2 * a) * (∑ j, x j) + ((Fintype.card ι : ℝ) * a) * a := by
  have h : ∀ j, (x j - a) * (x j - a) = x j * x j - (2 * a) * x j + a * a := fun j => by ring
  simp only [h, sum_add_distrib, sum_sub_distrib, ← mul_sum, sum_const, card_univ, nsmul_eq_mul]
  ring

/-- The sum of deviations from `a`, each times `d`: `Σ (x−a)·d = d·(Σ x − n·a)`. -/
theorem sum_dev_mul (x : ι → ℝ) (a d : ℝ) :
    ∑ j, (x j - a) * d = d * ((∑ j, x j) - (Fintype.card ι : ℝ) * a) := by
  simp only [← sum_mul, sum_sub_distrib, sum_const, card_univ, nsmul_eq_mul]
  ring

end CenteredSums
-- ==== Proof.RowFit.lean ====
/-
  A straight line fitted to one row, two ways, and why they agree on a row of real numbers.

  For a row `x` of `K` numbers, a label value `y` and the label mean `ybar`, both programs form
    s    = the row's sum,                a = s / 4096   (the divisor is the batch size, as both programs have it),
    Sx   = the sum of squared deviations (x j - a)²,
    Sxy  = the sum of the deviations (x j - a), each times (y - ybar),
    beta = Sxy / Sx,   alpha = ybar - beta · a,   and the result  beta · s + alpha.
  The reference computes `Sx` and `Sxy` as those sums over the row (`rowSx`, `rowSxy`). The kernel keeps only the
  row's sum and its sum of squares `q` and uses the expanded forms
    Sx  = q - (2·a)·s + (8192·a)·a,        Sxy = (y - ybar)·(s - 8192·a)            (`momentSx`, `momentSxy`),
  where 8192 is the row's length. The two are equal by expanding the square and pulling the common factor out of
  the sum: distributivity, which holds for real numbers and fails at the infinities of the extended reals. So the
  equality is stated for a row of REAL entries and real `y`, `ybar`; the quotient `beta` may then still divide by
  zero, but it is the same quotient of the same two numbers on both sides, so its convention does not matter.

  The float constants that occur (0, 2, 4096, 8192) are stated here once as the reals their bit patterns denote.
-/
import Idealize.ShloMosaic.PureOps.Ideal
import Idealize.ShloMosaic.PureOps.Ideal.Laws
import proofs.«159984_j39934605918594_2_alg».proof.Proof.LibCenteredSums

noncomputable section

namespace RowFit

open Idealize.ShloMosaic

/-! ## The constants -/

theorem two_val : Ideal.ofBits .f32 0x40000000#32 = ((2 : ℝ) : EReal) := by
  simp [Ideal.ofBits, Ideal.ieee, -EReal.coe_mul]; norm_num

theorem batch_val : Ideal.ofBits .f32 0x45800000#32 = ((4096 : ℝ) : EReal) := by
  simp [Ideal.ofBits, Ideal.ieee, -EReal.coe_mul]; norm_num

theorem len_val : Ideal.ofBits .f32 0x46000000#32 = ((8192 : ℝ) : EReal) := by
  simp [Ideal.ofBits, Ideal.ieee, -EReal.coe_mul]; norm_num

/-- A finite sum of real numbers, taken in the extended reals, is the real sum. -/
theorem coe_sum {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-! ## The two forms -/

/-- The row mean as both programs take it: the sum over the batch size 4096. -/
def mean (s : EReal) : EReal := Ideal.div s (Ideal.ofBits .f32 0x45800000#32)

/-- From the sum `s`, the two second-order sums and the label mean: slope times sum plus intercept. -/
def finish (s Sxy Sx yb : EReal) : EReal :=
  Ideal.div Sxy Sx * s + (yb - Ideal.div Sxy Sx * mean s)

/-- The kernel's `Sx` from the sum `s` and the sum of squares `q`. -/
def momentSx (s q : EReal) : EReal :=
  (q - (Ideal.ofBits .f32 0x40000000#32 * mean s) * s) + (Ideal.ofBits .f32 0x46000000#32 * mean s) * mean s

/-- The kernel's `Sxy` from the sum `s`. -/
def momentSxy (s y yb : EReal) : EReal :=
  (y - yb) * (s - Ideal.ofBits .f32 0x46000000#32 * mean s)

/-- The kernel's value of a row: from its sum and sum of squares alone. -/
def fromMoments (s q y yb : EReal) : EReal := finish s (momentSxy s y yb) (momentSx s q) yb

variable {K : ℕ}

/-- A row's sum, started from the zero word as both programs' reductions are. -/
def rowSum (x : Fin K → EReal) : EReal := Ideal.ofBits .f32 0x00000000#32 + ∑ j, x j

/-- A row's sum of squares. -/
def rowSq (x : Fin K → EReal) : EReal := Ideal.ofBits .f32 0x00000000#32 + ∑ j, x j * x j

/-- The reference's `Sx`: the squared deviations from the mean, summed over the row. -/
def rowSx (x : Fin K → EReal) : EReal :=
  Ideal.ofBits .f32 0x00000000#32 + ∑ j, (x j - mean (rowSum x)) * (x j - mean (rowSum x))

/-- The reference's `Sxy`: the deviations, each times `y - ybar`, summed over the row. -/
def rowSxy (x : Fin K → EReal) (y yb : EReal) : EReal :=
  Ideal.ofBits .f32 0x00000000#32 + ∑ j, (x j - mean (rowSum x)) * (y - yb)

/-- The reference's value of a row. -/
def fromRow (x : Fin K → EReal) (y yb : EReal) : EReal := finish (rowSum x) (rowSxy x y yb) (rowSx x) yb

/-! ## They agree on real rows -/

/-- The sum of a real row is real. -/
theorem rowSum_coe (xr : Fin K → ℝ) : rowSum (fun j => ((xr j : ℝ) : EReal)) = ((∑ j, xr j : ℝ) : EReal) := by
  unfold rowSum; rw [Ideal.ofBits_zero_f32, zero_add, coe_sum]

/-- The sum of squares of a real row is real. -/
theorem rowSq_coe (xr : Fin K → ℝ) : rowSq (fun j => ((xr j : ℝ) : EReal)) = ((∑ j, xr j * xr j : ℝ) : EReal) := by
  unfold rowSq; rw [Ideal.ofBits_zero_f32, zero_add]; simp only [← EReal.coe_mul]; rw [coe_sum]

/-- The mean of a real sum is real: division by 4096 is multiplication by its reciprocal. -/
theorem mean_coe (S : ℝ) : mean (S : EReal) = ((S * (1 / 4096) : ℝ) : EReal) := by
  unfold mean; rw [batch_val, Ideal.div_coe (by norm_num : (4096 : ℝ) ≠ 0), ← EReal.coe_mul]

/-- THE LAW, for `Sx`: on a real row of length 8192 the summed squared deviations are the expanded form. -/
theorem rowSx_eq (xr : Fin 8192 → ℝ) :
    rowSx (fun j => ((xr j : ℝ) : EReal))
      = momentSx (rowSum (fun j => ((xr j : ℝ) : EReal))) (rowSq (fun j => ((xr j : ℝ) : EReal))) := by
  unfold rowSx momentSx
  rw [rowSum_coe, rowSq_coe, mean_coe, two_val, len_val, Ideal.ofBits_zero_f32, zero_add]
  simp only [← EReal.coe_sub, ← EReal.coe_mul, ← EReal.coe_add]
  rw [coe_sum, CenteredSums.sum_sq_dev, Fintype.card_fin]
  norm_num

/-- THE LAW, for `Sxy`: on a real row of length 8192, with real `y` and `ybar`, the common factor comes out of
    the sum. -/
theorem rowSxy_eq (xr : Fin 8192 → ℝ) (y yb : ℝ) :
    rowSxy (fun j => ((xr j : ℝ) : EReal)) (y : EReal) (yb : EReal)
      = momentSxy (rowSum (fun j => ((xr j : ℝ) : EReal))) (y : EReal) (yb : EReal) := by
  unfold rowSxy momentSxy
  rw [rowSum_coe, mean_coe, len_val, Ideal.ofBits_zero_f32, zero_add]
  simp only [← EReal.coe_sub, ← EReal.coe_mul]
  rw [coe_sum, CenteredSums.sum_dev_mul, Fintype.card_fin]
  norm_num

/-- So on a real row with real `y`, `ybar` the reference's value is the kernel's value of the row's two moments. -/
theorem fromRow_eq (xr : Fin 8192 → ℝ) (y yb : ℝ) :
    fromRow (fun j => ((xr j : ℝ) : EReal)) (y : EReal) (yb : EReal)
      = fromMoments (rowSum (fun j => ((xr j : ℝ) : EReal))) (rowSq (fun j => ((xr j : ℝ) : EReal))) (y : EReal) (yb : EReal) := by
  unfold fromRow fromMoments
  rw [rowSx_eq, rowSxy_eq]

end RowFit

end
-- ==== Proof.LibRowBroadcast.lean ====
/-
  A vector spread over a matrix, read at an entry.

  A length-`N` vector made a column and then repeated along `H` columns has, at `(r, j)`, the vector's entry `r`;
  a length-`H` vector made a row and then repeated down `N` rows has, at `(r, j)`, the vector's entry `j`;
  and a length-`N` vector reshaped to an `N × 1` column has, at `(r, 0)`, the vector's entry `r`.
-/
import Idealize.ShloMosaic.Lib.Pipeline.Value
import Idealize.ShloMosaic.Lib.ValueIdx

noncomputable section

open Idealize.ShloMosaic Idealize.ShloMosaic.ValueIdx

namespace RowBroadcast

variable {α : Type} {N H : ℕ}

/-- A vector as a column … -/
theorem col_apply (h : (⟨1, ![N]⟩ : Shape).BroadcastsInDim ⟨2, ![N, 1]⟩ ![0]) (v : (⟨1, ![N]⟩ : Shape).Idx → α)
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- … repeated along the columns: entry `(r, j)` is the vector's entry `r`. -/
theorem rows_apply (h1 : (⟨1, ![N]⟩ : Shape).BroadcastsInDim ⟨2, ![N, 1]⟩ ![0])
    (h2 : (⟨2, ![N, 1]⟩ : Shape).BroadcastsInDim ⟨2, ![N, H]⟩ ![0, 1]) (v : (⟨1, ![N]⟩ : Shape).Idx → α)
    (r : Fin N) (j : Fin H) :
    broadcastInDim ⟨2, ![N, H]⟩ ![0, 1] h2 (broadcastInDim ⟨2, ![N, 1]⟩ ![0] h1 v) (ix2 r j) = v (ix1 r) := by
  refine (broadcastInDim_apply ![0, 1] h2 _ (ix2 r j) (ix2 r (0 : Fin 1)) fun a => ?_).trans (col_apply h1 v r 0)
  match a with
  | ⟨0, _⟩ =>
    show r.val = if N = 1 then 0 else r.val
    split
    · have := r.isLt; omega
    · rfl
  | ⟨1, _⟩ =>
    show 0 = if (1 : ℕ) = 1 then 0 else j.val
    rw [if_pos rfl]

/-- A vector as a row, repeated down the rows: entry `(r, j)` is the vector's entry `j`. -/
theorem cols_apply (h1 : (⟨1, ![H]⟩ : Shape).BroadcastsInDim ⟨2, ![1, H]⟩ ![1])
    (h2 : (⟨2, ![1, H]⟩ : Shape).BroadcastsInDim ⟨2, ![N, H]⟩ ![0, 1]) (v : (⟨1, ![H]⟩ : Shape).Idx → α)
    (r : Fin N) (j : Fin H) :
    broadcastInDim ⟨2, ![N, H]⟩ ![0, 1] h2 (broadcastInDim ⟨2, ![1, H]⟩ ![1] h1 v) (ix2 r j) = v (ix1 j) := by
  refine (broadcastInDim_apply ![0, 1] h2 _ (ix2 r j) (ix2 (0 : Fin 1) j) fun a => ?_).trans
    (broadcastInDim_apply ![1] h1 v (ix2 (0 : Fin 1) j) (ix1 j) fun a => ?_)
  · match a with
    | ⟨0, _⟩ =>
      show 0 = if (1 : ℕ) = 1 then 0 else r.val
      rw [if_pos rfl]
    | ⟨1, _⟩ =>
      show j.val = if H = 1 then 0 else j.val
      split
      · have := j.isLt; omega
      · rfl
  · match a with
    | ⟨0, _⟩ =>
      show j.val = if H = 1 then 0 else j.val
      split
      · have := j.isLt; omega
      · rfl

/-- A vector reshaped to a column: entry `(r, 0)` is the vector's entry `r`. -/
theorem reshape_col_apply (x : (⟨1, ![N]⟩ : Shape).Idx → α) (h : (⟨1, ![N]⟩ : Shape).ShapeCasts ⟨2, ![N, 1]⟩)
    (r : Fin N) (u : Fin 1) : shapeCast ⟨2, ![N, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end RowBroadcast

end
-- ==== Proof.KernelPayloads.lean ====
/-
  The body's three computed values, read entry by entry over the extended reals.

    * the reset value is zero in every entry;
    * the row-sum step adds to the accumulator's entry of a row the sum of that row of the column block
      (2048 entries), and the sum-of-squares step adds the sum of the squares of that row;
    * the output tile holds, in every column of a row, the fitted value `RowFit.fromMoments` of that row's two
      accumulator entries, its label value and the label mean (a single number, spread down the rows).
  The sum along a row is a lane reduction; the column shapes [n] -> [n,1] -> [n,1000] only re-index.
-/
import proofs.«159984_j39934605918594_2_alg».proof.Proof.Gen.KernelIdeal.Skeleton
import proofs.«159984_j39934605918594_2_alg».proof.Proof.RowFit
import proofs.«159984_j39934605918594_2_alg».proof.Proof.LibRowBroadcast
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The reset value: zero everywhere. -/
theorem zeroSum_apply (r : Fin 512) (u : Fin 1) :
    k0_pay1 (F := Ideal) (ix2 r u) = Ideal.ofBits .f32 0x00000000#32 := by
  unfold k0_pay1
  rw [shapeCast_self]
  rfl

theorem zeroSq_apply (r : Fin 512) (u : Fin 1) :
    k0_pay2 (F := Ideal) (ix2 r u) = Ideal.ofBits .f32 0x00000000#32 := by
  unfold k0_pay2
  rw [shapeCast_self]
  rfl

/-- The lane reduction of a [512, 2048] block along its rows, at row `r`: the sum of that row. -/
theorem laneSum_apply (x : FVec Ideal S512x2048 .f32) (r : Fin 512) :
    multiReduction .add [1] S512 x 0x00000000#32 reduces_S512x2048_S512 (.inl rfl) rfl (ix1 r)
      = ∑ k : Fin 2048, x (ix2 r k) := by
  refine (Ideal.multiReduction_add_single x 0x00000000#32 reduces_S512x2048_S512 (.inl rfl) rfl (ix1 r)).trans ?_
  refine Finset.sum_congr rfl fun k _ => congrArg x ?_
  funext a
  match a with
  | ⟨0, _⟩ => rfl
  | ⟨1, _⟩ => rfl

/-- The row-sum step at row `r`: the accumulator's entry plus the row's sum over this column block. -/
theorem sumStep_apply (x : Vec Ideal S512x2048 .f32) (acc : Vec Ideal S512x1 .f32) (r : Fin 512) (u : Fin 1) :
    k0_pay3 x acc (ix2 r u) = acc (ix2 r u) + ∑ k : Fin 2048, x (ix2 r k) := by
  unfold k0_pay3
  rw [shapeCast_self]
  refine (addf_apply _ _ _).trans (congrArg (acc (ix2 r u) + ·) ?_)
  exact (RowBroadcast.reshape_col_apply _ shapeCasts_S512_S512x1 r u).trans (laneSum_apply x r)

/-- The sum-of-squares step at row `r`: the accumulator's entry plus the row's sum of squares over this block. -/
theorem sqStep_apply (x : Vec Ideal S512x2048 .f32) (acc : Vec Ideal S512x1 .f32) (r : Fin 512) (u : Fin 1) :
    k0_pay4 x acc (ix2 r u) = acc (ix2 r u) + ∑ k : Fin 2048, x (ix2 r k) * x (ix2 r k) := by
  unfold k0_pay4
  rw [shapeCast_self]
  refine (addf_apply _ _ _).trans (congrArg (acc (ix2 r u) + ·) ?_)
  exact (RowBroadcast.reshape_col_apply _ shapeCasts_S512_S512x1 r u).trans (laneSum_apply (mulf x x) r)

/-- The one number of a [1,1] array spread down a column: every entry is that number. -/
theorem spreadMean_apply (yb : FVec Ideal S1x1 .f32) (j : S512x1.Idx) :
    broadcastTo S512x1 yb broadcasts_S1x1_S512x1 j = yb (ix2 (0 : Fin 1) (0 : Fin 1)) := by
  refine broadcastTo_apply yb broadcasts_S1x1_S512x1 j (ix2 (0 : Fin 1) (0 : Fin 1)) fun a => ?_
  match a with
  | ⟨0, _⟩ => show 0 = if (1 : ℕ) = 1 then 0 else _; rw [if_pos rfl]
  | ⟨1, _⟩ => show 0 = if (1 : ℕ) = 1 then 0 else _; rw [if_pos rfl]

/-- The output tile at row `r`, any column: the fitted value of the row's moments, label and the label mean. -/
theorem fitTile_apply (s q y : Vec Ideal S512x1 .f32) (yb : Vec Ideal S1x1 .f32) (r : Fin 512) (col : Fin 1000) :
    k0_pay5 s q y yb (ix2 r col)
      = RowFit.fromMoments (s (ix2 r (0 : Fin 1))) (q (ix2 r (0 : Fin 1))) (y (ix2 r (0 : Fin 1)))
          (yb (ix2 (0 : Fin 1) (0 : Fin 1))) := by
  unfold k0_pay5
  simp only [shapeCast_self]
  refine (broadcastTo_apply _ broadcasts_S512x1_S512x1000 (ix2 r col) (ix2 r (0 : Fin 1)) fun a => ?_).trans ?_
  · match a with
    | ⟨0, _⟩ => show r.val = if (512 : ℕ) = 1 then 0 else r.val; rw [if_neg (by decide)]
    | ⟨1, _⟩ => show 0 = if (1 : ℕ) = 1 then 0 else col.val; rw [if_pos rfl]
  · simp only [addf_apply, mulf_apply, subf_apply, divf_apply, broadcast_apply, spreadMean_apply]
    rfl

end Cert.KernelIdeal.Payloads

end
-- ==== Proof.LibBlockSum.lean ====
/-
  A row of 8192 entries summed in four blocks of 2048.

  In any commutative additive monoid, starting from `z` and adding the sum of the first 2048 entries, then of the
  next 2048, and so on four times, gives `z` plus the sum of all 8192 entries: position `2048 b + k` of the row is
  entry `k` of block `b`, every position arises exactly once that way, and addition is associative. No finiteness
  is involved, so this holds for extended reals as it stands.
-/
import Mathlib.Algebra.BigOperators.Fin
import Mathlib.Algebra.BigOperators.Group.Finset.Basic
import Mathlib.Tactic.Ring

namespace BlockSum

/-- Entry `k` of block `b`, as a position in the row. -/
def pos (b : ℕ) (hb : b < 4) (k : Fin 2048) : Fin 8192 := ⟨2048 * b + k.val, by have := k.isLt; omega⟩

theorem pos_val (b : ℕ) (hb : b < 4) (k : Fin 2048) : (pos b hb k).val = 2048 * b + k.val := rfl

/-- Block and offset of a position. -/
def split : Fin 4 × Fin 2048 ≃ Fin 8192 where
  toFun p := pos p.1.val p.1.isLt p.2
  invFun J := (⟨J.val / 2048, by have := J.isLt; omega⟩, ⟨J.val % 2048, Nat.mod_lt _ (by decide)⟩)
  left_inv p := by
    obtain ⟨⟨b, hb⟩, ⟨k, hk⟩⟩ := p
    refine Prod.ext (Fin.ext ?_) (Fin.ext ?_)
    · show (2048 * b + k) / 2048 = b; omega
    · show (2048 * b + k) % 2048 = k; omega
  right_inv J := by
    refine Fin.ext ?_
    show 2048 * (J.val / 2048) + J.val % 2048 = J.val
    exact Nat.div_add_mod _ _

variable {M : Type*} [AddCommMonoid M]

/-- The whole row's sum, block by block. -/
theorem sum_blocks (f : Fin 8192 → M) :
    ∑ J, f J = (∑ k, f (pos 0 (by decide) k)) + (∑ k, f (pos 1 (by decide) k)) + (∑ k, f (pos 2 (by decide) k))
      + (∑ k, f (pos 3 (by decide) k)) := by
  rw [← Equiv.sum_comp split f, Fintype.sum_prod_type, Fin.sum_univ_four]
  rfl

/-- Started from `z` and accumulated one block at a time. -/
theorem fold_blocks (f : Fin 8192 → M) (z : M) :
    (((z + ∑ k, f (pos 0 (by decide) k)) + ∑ k, f (pos 1 (by decide) k)) + ∑ k, f (pos 2 (by decide) k))
      + ∑ k, f (pos 3 (by decide) k) = z + ∑ J, f J := by
  rw [sum_blocks f]
  simp only [add_assoc]

end BlockSum
-- ==== Proof.KernelAccum.lean ====
/-
  The two accumulators after a row tile's last column step, entry by entry, in terms of the input matrix.

  Point `t` of the grid is column step `t mod 4` of row tile `t / 4`: its block of the input matrix holds rows
  `512 (t / 4) + r` and columns `2048 (t mod 4) + k`; its block of the label column holds the same rows; the
  label mean is the one entry of its array at every point. After the fourth column step of a row tile the row-sum
  accumulator of row `r` has been set to zero plus the first block's row sum and then had the other three
  blocks' row sums added, in order; that is zero plus the sum of the whole row (`RowFit.rowSum`), and likewise
  for the squares (`RowFit.rowSq`): re-association only, valid for arbitrary extended reals.
-/
import proofs.«159984_j39934605918594_2_alg».proof.Proof.KernelSteps
import proofs.«159984_j39934605918594_2_alg».proof.Proof.KernelPayloads
import proofs.«159984_j39934605918594_2_alg».proof.Proof.LibBlockSum

noncomputable section

open Idealize.ShloMosaic Idealize.ShloMosaic.TcCoe Idealize.SL.Sem Idealize.ShloMosaic.ValueIdx

namespace Cert.KernelIdeal.Accum

open Cert.KernelIdeal Cert.KernelIdeal.Gen

variable (m : (ℓ : Loc nD τ sig) → Buf (Elt Ideal) ℓ)

/-- The input matrix, the label column and the label mean as the region finds them, as arrays of extended reals. -/
abbrev matX (c : Dev nD) : S4096x8192.Idx → EReal := V m c main_arg0
abbrev colY (c : Dev nD) : S4096x1.Idx → EReal := V m c main_v11
abbrev meanY (c : Dev nD) : S1x1.Idx → EReal := V m c main_v12

/-- Where each window's block sits at point `t`, decided over the 32 grid points: the input matrix's block index is
    (row tile, column step); the label column's and the output's is (row tile, 0); the label mean's is (0, 0). -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The input matrix's block at point `t`, entry `(r, k)`: the matrix at row `512 (t/4) + r`, column
    `2048 (t mod 4) + k`. -/
theorem read_x (c : Dev nD) (t : Fin cfg0.N) (r : Fin 512) (k : Fin 2048) (R : Fin 4096) (J : Fin 8192)
    (hR : R.val = 512 * (t.val / 4) + r.val) (hJ : J.val = 2048 * (t.val % 4) + k.val) :
    (iblk m c 0 t : Vec Ideal S512x2048 .f32) (ix2 r k) = matX m c (ix2 R J) := by
  unfold iblk
  rw [View.read_apply]
  show V m c main_arg0 _ = V m c main_arg0 _
  congr 1
  funext a
  apply Fin.ext
  obtain ⟨e0, e1, -⟩ := idx_facts t
  match a with
  | ⟨0, _⟩ => show win0_0.index t (0 : Fin 2) * 512 + 1 * r.val = R.val; rw [e0, hR]; omega
  | ⟨1, _⟩ => show win0_0.index t (1 : Fin 2) * 2048 + 1 * k.val = J.val; rw [e1, hJ]; omega

/-- The label column's block at point `t`, entry `r`: the column at row `512 (t/4) + r`. -/
theorem read_y (c : Dev nD) (t : Fin cfg0.N) (r : Fin 512) (R : Fin 4096) (hR : R.val = 512 * (t.val / 4) + r.val) :
    (iblk m c 1 t : Vec Ideal S512x1 .f32) (ix2 r (0 : Fin 1)) = colY m c (ix2 R (0 : Fin 1)) := by
  unfold iblk
  rw [View.read_apply]
  show V m c main_v11 _ = V m c main_v11 _
  congr 1
  funext a
  apply Fin.ext
  obtain ⟨-, -, e2, e3, -⟩ := idx_facts t
  match a with
  | ⟨0, _⟩ => show win0_1.index t (0 : Fin 2) * 512 + 1 * r.val = R.val; rw [e2, hR]; omega
  | ⟨1, _⟩ => show win0_1.index t (1 : Fin 2) * 1 + 1 * 0 = 0; rw [e3]

/-- The label mean's block at any point: its one entry. -/
theorem read_mean (c : Dev nD) (t : Fin cfg0.N) :
    (iblk m c 2 t : Vec Ideal S1x1 .f32) (ix2 (0 : Fin 1) (0 : Fin 1)) = meanY m c (ix2 (0 : Fin 1) (0 : Fin 1)) := by
  unfold iblk
  rw [View.read_apply]
  show V m c main_v12 _ = V m c main_v12 _
  congr 1
  funext a
  apply Fin.ext
  obtain ⟨-, -, -, -, e4, e5, -⟩ := idx_facts t
  match a with
  | ⟨0, _⟩ => show win0_2.index t (0 : Fin 2) * 1 + 1 * 0 = 0; rw [e4]
  | ⟨1, _⟩ => show win0_2.index t (1 : Fin 2) * 1 + 1 * 0 = 0; rw [e5]

/-! ## The row sums -/

/-- After a first column step: zero plus the first block's row sum. -/
theorem sum_first (c : Dev nD) (t : Fin cfg0.N) (h0 : t.val % 4 = 0) (r : Fin 512) (R : Fin 4096)
    (hR : R.val = 512 * (t.val / 4) + r.val) :
    (outsAt0 m c t.val t.isLt).2.1 (ix2 r (0 : Fin 1))
      = Ideal.ofBits .f32 0x00000000#32 + ∑ k : Fin 2048, matX m c (ix2 R (BlockSum.pos 0 (by decide) k)) := by
  refine (congrFun (Steps.sum_first m c t h0) (ix2 r (0 : Fin 1))).trans ?_
  refine (Payloads.sumStep_apply (iblk m c 0 t) (k0_pay1 (F := Ideal)) r 0).trans ?_
  refine congrArg₂ (· + ·) (Payloads.zeroSum_apply r 0) (Finset.sum_congr rfl fun k _ => ?_)
  exact read_x m c t r k R (BlockSum.pos 0 (by decide) k) hR (by rw [BlockSum.pos_val, h0])

/-- After a later column step `b`: what the point before left plus block `b`'s row sum. -/
theorem sum_next (c : Dev nD) (t : Fin cfg0.N) (h0 : ¬t.val % 4 = 0) (b : ℕ) (hb4 : b < 4) (hb : t.val % 4 = b)
    (r : Fin 512) (R : Fin 4096) (hR : R.val = 512 * (t.val / 4) + r.val) :
    (outsAt0 m c t.val t.isLt).2.1 (ix2 r (0 : Fin 1))
      = (outsAt0 m c (t.val - 1) (Nat.lt_of_le_of_lt (Nat.sub_le _ _) t.isLt)).2.1 (ix2 r (0 : Fin 1)) + ∑ k : Fin 2048, matX m c (ix2 R (BlockSum.pos b hb4 k)) := by
  refine (congrFun (Steps.sum_next m c t h0) (ix2 r (0 : Fin 1))).trans ?_
  refine (Payloads.sumStep_apply (iblk m c 0 t) (outsAt0 m c (t.val - 1) (Nat.lt_of_le_of_lt (Nat.sub_le _ _) t.isLt)).2.1 r 0).trans ?_
  refine congrArg (_ + ·) (Finset.sum_congr rfl fun k _ => ?_)
  exact read_x m c t r k R (BlockSum.pos b hb4 k) hR (by rw [BlockSum.pos_val, hb])

/-! ## The sums of squares -/

theorem sq_first (c : Dev nD) (t : Fin cfg0.N) (h0 : t.val % 4 = 0) (r : Fin 512) (R : Fin 4096)
    (hR : R.val = 512 * (t.val / 4) + r.val) :
    (outsAt0 m c t.val t.isLt).2.2 (ix2 r (0 : Fin 1))
      = Ideal.ofBits .f32 0x00000000#32 + ∑ k : Fin 2048,
          matX m c (ix2 R (BlockSum.pos 0 (by decide) k)) * matX m c (ix2 R (BlockSum.pos 0 (by decide) k)) := by
  refine (congrFun (Steps.sq_first m c t h0) (ix2 r (0 : Fin 1))).trans ?_
  refine (Payloads.sqStep_apply (iblk m c 0 t) (k0_pay2 (F := Ideal)) r 0).trans ?_
  refine congrArg₂ (· + ·) (Payloads.zeroSq_apply r 0) (Finset.sum_congr rfl fun k _ => ?_)
  rw [read_x m c t r k R (BlockSum.pos 0 (by decide) k) hR (by rw [BlockSum.pos_val, h0])]

theorem sq_next (c : Dev nD) (t : Fin cfg0.N) (h0 : ¬t.val % 4 = 0) (b : ℕ) (hb4 : b < 4) (hb : t.val % 4 = b)
    (r : Fin 512) (R : Fin 4096) (hR : R.val = 512 * (t.val / 4) + r.val) :
    (outsAt0 m c t.val t.isLt).2.2 (ix2 r (0 : Fin 1))
      = (outsAt0 m c (t.val - 1) (Nat.lt_of_le_of_lt (Nat.sub_le _ _) t.isLt)).2.2 (ix2 r (0 : Fin 1)) + ∑ k : Fin 2048,
          matX m c (ix2 R (BlockSum.pos b hb4 k)) * matX m c (ix2 R (BlockSum.pos b hb4 k)) := by
  refine (congrFun (Steps.sq_next m c t h0) (ix2 r (0 : Fin 1))).trans ?_
  refine (Payloads.sqStep_apply (iblk m c 0 t) (outsAt0 m c (t.val - 1) (Nat.lt_of_le_of_lt (Nat.sub_le _ _) t.isLt)).2.2 r 0).trans ?_
  refine congrArg (_ + ·) (Finset.sum_congr rfl fun k _ => ?_)
  rw [read_x m c t r k R (BlockSum.pos b hb4 k) hR (by rw [BlockSum.pos_val, hb])]

/-! ## After the fourth column step -/

/-- The row-sum accumulator after a row tile's last column step: zero plus the whole row's sum. -/
theorem sum_last (c : Dev nD) (t : Fin cfg0.N) (h3 : t.val % 4 = 3) (r : Fin 512) (R : Fin 4096)
    (hR : R.val = 512 * (t.val / 4) + r.val) :
    (outsAt0 m c t.val t.isLt).2.1 (ix2 r (0 : Fin 1)) = RowFit.rowSum (fun J : Fin 8192 => matX m c (ix2 R J)) := by
  have hN : cfg0.N = 32 := N_0
  have hlt : t.val < cfg0.N := t.isLt
  have e3 := sum_next m c t (by omega) 3 (by decide) h3 r R hR
  have e2 := sum_next m c (⟨t.val - 1, by omega⟩ : Fin cfg0.N) (by show ¬(t.val - 1) % 4 = 0; omega) 2 (by decide)
    (by show (t.val - 1) % 4 = 2; omega) r R (by show R.val = 512 * ((t.val - 1) / 4) + r.val; omega)
  have e1 := sum_next m c (⟨t.val - 1 - 1, by omega⟩ : Fin cfg0.N) (by show ¬(t.val - 1 - 1) % 4 = 0; omega) 1 (by decide)
    (by show (t.val - 1 - 1) % 4 = 1; omega) r R (by show R.val = 512 * ((t.val - 1 - 1) / 4) + r.val; omega)
  have e0 := sum_first m c (⟨t.val - 1 - 1 - 1, by omega⟩ : Fin cfg0.N) (by show (t.val - 1 - 1 - 1) % 4 = 0; omega) r R
    (by show R.val = 512 * ((t.val - 1 - 1 - 1) / 4) + r.val; omega)
  have s2 := e2.trans (congrArg (· + _) (e1.trans (congrArg (· + _) e0)))
  have s3 := e3.trans (congrArg (· + _) s2)
  exact s3.trans (BlockSum.fold_blocks (fun J : Fin 8192 => matX m c (ix2 R J)) _)

/-- The sum-of-squares accumulator after a row tile's last column step: zero plus the whole row's sum of squares. -/
theorem sq_last (c : Dev nD) (t : Fin cfg0.N) (h3 : t.val % 4 = 3) (r : Fin 512) (R : Fin 4096)
    (hR : R.val = 512 * (t.val / 4) + r.val) :
    (outsAt0 m c t.val t.isLt).2.2 (ix2 r (0 : Fin 1)) = RowFit.rowSq (fun J : Fin 8192 => matX m c (ix2 R J)) := by
  have hN : cfg0.N = 32 := N_0
  have hlt : t.val < cfg0.N := t.isLt
  have e3 := sq_next m c t (by omega) 3 (by decide) h3 r R hR
  have e2 := sq_next m c (⟨t.val - 1, by omega⟩ : Fin cfg0.N) (by show ¬(t.val - 1) % 4 = 0; omega) 2 (by decide)
    (by show (t.val - 1) % 4 = 2; omega) r R (by show R.val = 512 * ((t.val - 1) / 4) + r.val; omega)
  have e1 := sq_next m c (⟨t.val - 1 - 1, by omega⟩ : Fin cfg0.N) (by show ¬(t.val - 1 - 1) % 4 = 0; omega) 1 (by decide)
    (by show (t.val - 1 - 1) % 4 = 1; omega) r R (by show R.val = 512 * ((t.val - 1 - 1) / 4) + r.val; omega)
  have e0 := sq_first m c (⟨t.val - 1 - 1 - 1, by omega⟩ : Fin cfg0.N) (by show (t.val - 1 - 1 - 1) % 4 = 0; omega) r R
    (by show R.val = 512 * ((t.val - 1 - 1 - 1) / 4) + r.val; omega)
  have s2 := e2.trans (congrArg (· + _) (e1.trans (congrArg (· + _) e0)))
  have s3 := e3.trans (congrArg (· + _) s2)
  exact s3.trans (BlockSum.fold_blocks (fun J : Fin 8192 => matX m c (ix2 R J) * matX m c (ix2 R J)) _)

/-- THE OUTPUT TILE after a row tile's last column step, entry `(r, col)`: the fitted value of row
    `512 (t/4) + r` from its two moments, its label value and the label mean — the same in every column. -/
theorem tile_last (c : Dev nD) (t : Fin cfg0.N) (h3 : t.val % 4 = 3) (r : Fin 512) (col : Fin 1000) (R : Fin 4096)
    (hR : R.val = 512 * (t.val / 4) + r.val) :
    (outsAt0 m c t.val t.isLt).1 (ix2 r col)
      = RowFit.fromMoments (RowFit.rowSum (fun J : Fin 8192 => matX m c (ix2 R J)))
          (RowFit.rowSq (fun J : Fin 8192 => matX m c (ix2 R J))) (colY m c (ix2 R (0 : Fin 1)))
          (meanY m c (ix2 (0 : Fin 1) (0 : Fin 1))) := by
  refine (congrFun (Steps.tile_last m c t h3) (ix2 r col)).trans ?_
  refine (Payloads.fitTile_apply (outsAt0 m c t.val t.isLt).2.1 (outsAt0 m c t.val t.isLt).2.2 (iblk m c 1 t) (iblk m c 2 t) r col).trans ?_
  have h1 := sum_last m c t h3 r R hR
  have h2 := sq_last m c t h3 r R hR
  have h4 := read_y m c t r R hR
  have h5 := read_mean m c t
  exact congr (congr (congr (congrArg RowFit.fromMoments h1) h2) h4) h5

end Cert.KernelIdeal.Accum

end
-- ==== Proof.KernelWhole.lean ====
/-
  The kernel's result array after the run, as one function of the arrays the region finds.

  The output window's block index is (row tile, 0) at all four column steps of a row tile, and the pipeline writes
  the block back once, after the last of them (the points `t` with `t mod 4 = 3`). What that point writes is the
  tile of fitted values of the rows `512 (t/4) + r`; the eight last steps' blocks tile the [4096, 1000] array
  (row `R` lies in the block of row tile `R / 512`). So the array ends holding, at `(R, col)`, the fitted value
  of row `R` from the row's two moments, its label value and the label mean — every column the same.
-/
import proofs.«159984_j39934605918594_2_alg».proof.Proof.KernelAccum
import proofs.«159984_j39934605918594_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Accum

/-- The fitted value of row `R` from the row's moments. -/
def rowVal (X : S4096x8192.Idx → EReal) (Y : S4096x1.Idx → EReal) (YB : S1x1.Idx → EReal) (R : Fin 4096) : EReal :=
  RowFit.fromMoments (RowFit.rowSum (fun J : Fin 8192 => X (ix2 R J))) (RowFit.rowSq (fun J : Fin 8192 => X (ix2 R J)))
    (Y (ix2 R (0 : Fin 1))) (YB (ix2 (0 : Fin 1) (0 : Fin 1)))

/-- The result array: every column of row `R` holds that row's fitted value. -/
def G (X : S4096x8192.Idx → EReal) (Y : S4096x1.Idx → EReal) (YB : S1x1.Idx → EReal) : S4096x1000.Idx → EReal :=
  fun I => rowVal X Y YB ⟨(I 0).val, idx2_lt0 I⟩

variable (m : (ℓ : Loc nD τ sig) → Buf (Elt Ideal) ℓ) (ρ : Dev nD → PrngReg)

/-- An entry of the tile a last column step leaves, at any index of the tile. -/
theorem tile_entry (c : Dev nD) (t : Fin cfg0.N) (h3 : t.val % 4 = 3) (j : S512x1000.Idx) (R : Fin 4096)
    (hR : R.val = 512 * (t.val / 4) + (j 0).val) :
    (outsAt0 m c t.val t.isLt).1 j = rowVal (matX m c) (colY m c) (meanY m c) R :=
  (congrArg (outsAt0 m c t.val t.isLt).1 (eq_ix2 j)).trans (tile_last m c t h3 (j 0) (j 1) R hR)

/-- WHAT A FLUSHING POINT WRITES BACK is its block of `G`. -/
theorem flushed_eq (c : Dev nD) (t : Fin cfg0.N) (hf : (cfg0.win 3).flush t = true) :
    (dats m 0 c).flushed 3 t = ((cfg0.win 3).blk t).view.read (Elt Ideal) (G (matX m c) (colY m c) (meanY m c)) := by
  have h3 : t.val % 4 = 3 := (flush0_3 t).mp hf
  have hN : cfg0.N = 32 := N_0
  have hlt : t.val < cfg0.N := t.isLt
  obtain ⟨-, -, -, -, -, -, e6, -⟩ := idx_facts t
  rw [Value.flushed3]
  funext j
  have hj : (j 0).val < 512 := (j 0).isLt
  show (outsAt0 m c t.val t.isLt).1 j = G (matX m c) (colY m c) (meanY m c) (((cfg0.win 3).blk t).view.emb j)
  refine (tile_entry m c t h3 j ⟨512 * (t.val / 4) + (j 0).val, by omega⟩ rfl).trans ?_
  unfold G
  refine congrArg (rowVal (matX m c) (colY m c) (meanY m c)) (Fin.ext ?_)
  show 512 * (t.val / 4) + (j 0).val = win0_3.index t (0 : Fin 2) * 512 + 1 * (j 0).val
  rw [e6]; omega

/-- An index of the array is in point `t`'s block iff each coordinate is in the block's range on its axis. -/
theorem mem_blk (t : Fin cfg0.N) (i : S4096x1000.Idx) :
    i ∈ ((cfg0.win 3).blk t).view.set ↔ ∀ a : Fin 2, win0_3.index t a * S512x1000.size a ≤ (i a).val
      ∧ (i a).val < win0_3.index t a * S512x1000.size a + S512x1000.size a := by
  show i ∈ ((View.whole main_v13).slice (win0_3.rect t)).set ↔ _
  rw [View.set_slice_whole, Rect.mem_set_unit]
  exact Iff.rfl

/-- Every index lies in the block written back after the last column step of its row tile. -/
theorem cover (i : S4096x1000.Idx) :
    ∃ t : Fin cfg0.N, (cfg0.win 3).flush t = true ∧ i ∈ ((cfg0.win 3).blk t).view.set := by
  have hN : cfg0.N = 32 := N_0
  have hi0 : (i 0).val < 4096 := (i 0).isLt
  have hi1 : (i 1).val < 1000 := (i 1).isLt
  refine ⟨⟨4 * ((i 0).val / 512) + 3, by omega⟩, (flush0_3 _).mpr (by show (4 * ((i 0).val / 512) + 3) % 4 = 3; omega), ?_⟩
  rw [mem_blk]
  obtain ⟨-, -, -, -, -, -, e6, e7⟩ := idx_facts ⟨4 * ((i 0).val / 512) + 3, by omega⟩
  intro a
  match a with
  | ⟨0, _⟩ =>
    show win0_3.index _ (0 : Fin 2) * 512 ≤ (i 0).val ∧ (i 0).val < win0_3.index _ (0 : Fin 2) * 512 + 512
    rw [e6]
    show (4 * ((i 0).val / 512) + 3) / 4 * 512 ≤ (i 0).val ∧ (i 0).val < (4 * ((i 0).val / 512) + 3) / 4 * 512 + 512
    omega
  | ⟨1, _⟩ =>
    show win0_3.index _ (1 : Fin 2) * 1000 ≤ (i 1).val ∧ (i 1).val < win0_3.index _ (1 : Fin 2) * 1000 + 1000
    rw [e7]; omega

/-- THE ARRAY after the run. -/
theorem final (c : Dev nD) : (dats m 0 c).arrAt 3 cfg0.N = G (matX m c) (colY m c) (meanY m c) :=
  (dats m 0 c).arrAt_eq_of_cover 3 (G (matX m c) (colY m c) (meanY m c)) (flushed_eq m c) cover

/-- The run, read: the result array at `G` of the arrays the region finds, the arguments unchanged. -/
theorem run : θ_run defs (onTc (τ := τ) (main (F := Ideal))) ⟨m, fun _ => 0, ρ⟩ fun r => ∀ c : Dev nD,
      r.2.mem ((c : Thread nD τ).loc main_v13) = G (matX m c) (colY m c) (meanY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.LibGatherRows.lean ====
/-
  A gather of ROWS read at an index.

  Indexing a flat array `x : [N]` or a matrix `X : [N, H]` by an integer array, `x[idx]` and `X[idx, :]`, is a
  `stablehlo.gather` whose start indices have shape `[E, 1]` (the index vector on axis 1, one component), that one
  component mapped to operand axis 0, operand axis 0 collapsed (slice size 1 there), no batching axes; for the matrix
  the second operand axis is kept whole (slice size `H`) and is the result's one offset axis.

  StableHLO reads every start index as a SIGNED integer and CLAMPS it so that the slice fits: on axis 0 the slice has
  size 1, so the start `idx[e, 0]` is clamped into `[0, N - 1]`. That clamped number is `row N hN idx e`. The two
  theorems say that result element `e` of the vector gather is `x[row e]`, and result element `(e, h)` of the row
  gather is `X[row e, h]`: BOTH FORMS READ THE SAME ROW, so a matrix scaled row by row and then gathered is the
  gathered rows times the gathered scale.

  The statements take an arbitrary record of dimension numbers and the values of its fields as hypotheses (each is
  `rfl` at a record written as a literal). The proofs compute StableHLO's operand index axis by axis: on axis 0 it is
  the clamped start (no batching coordinate, and no offset coordinate since the axis is collapsed); on the matrix's
  axis 1 the start is 0 (the start index map does not name it) and the offset coordinate is the result's second
  coordinate.
-/
import Idealize.ShloMosaic.Lib.ValueIdx

noncomputable section

namespace GatherRows

open Idealize.ShloMosaic Idealize.ShloMosaic.ValueIdx

variable {α : Type}

/-- The row that result position `e` reads: the start index `idx[e, 0]` read as a signed integer and clamped into
    `[0, N - 1]`. -/
def row (N : Nat) (hN : 0 < N) {E w : Nat} (idx : IVec ⟨2, ![E, 1]⟩ w) (e : Fin E) : Fin N :=
  ⟨min (idx (ix2 e (0 : Fin 1))).toInt.toNat (N - 1), by omega⟩

/-- The row as a natural number. -/
theorem row_val (N : Nat) (hN : 0 < N) {E w : Nat} (idx : IVec ⟨2, ![E, 1]⟩ w) (e : Fin E) :
    (row N hN idx e).val = min (idx (ix2 e (0 : Fin 1))).toInt.toNat (N - 1) := rfl

/-- VECTOR form, as an operand index: result position `e` reads the operand at `row e`. -/
theorem operandIdx_vec {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (idx : IVec ⟨2, ![E, 1]⟩ w) (y : (⟨1, ![E]⟩ : Shape).Idx) :
    d.operandIdx y idx = ix1 (row N hN idx (y 0)) := by
  -- with the fields' values substituted the record is a literal, and its lists compute
  obtain ⟨od, cd, ob, sb, sm, iv, ss, wf⟩ := d
  simp only at hoff hcol hob hmap hiv hsl
  subst hoff hcol hob hmap hiv hsl
  funext a
  obtain rfl : a = 0 := Subsingleton.elim _ _
  refine Fin.ext ?_
  show GatherDims.start _ y idx 0 + GatherDims.batchCoord _ y 0 + GatherDims.offCoord _ y 0 = _
  -- no batching axis, and axis 0 is collapsed: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ ([0] : List (Fin 1)) := List.mem_singleton.mpr rfl
  rw [dif_pos hmem]
  -- the start index is read at `[e, 0]`
  have hsi : GatherDims.siIdx (s := ⟨1, ![N]⟩) (si := ⟨2, ![E, 1]⟩) (t := ⟨1, ![E]⟩)
      ⟨[], [0], [], sb, [0], 1, ![1], wf⟩ y
      ⟨List.idxOf (0 : Fin 1) [0], List.idxOf_lt_length_iff.2 hmem⟩ = ix2 (y 0) (0 : Fin 1) := by
    funext b; refine Fin.ext ?_
    match b with
    | ⟨0, _⟩ => rfl
    | ⟨1, _⟩ => rfl
  rw [hsi]
  rfl

/-- ROW form, as an operand index: result position `(e, h)` reads the operand at `(row e, h)`. -/
theorem operandIdx_rows {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (idx : IVec ⟨2, ![E, 1]⟩ w) (y : (⟨2, ![E, H]⟩ : Shape).Idx) :
    d.operandIdx y idx = ix2 (row N hN idx (y 0)) (y 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: collapsed, in the start index map — the clamped start, as in the vector form
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hmem : (0 : Fin 2) ∈ ([0] : List (Fin 2)) := List.mem_singleton.mpr rfl
    rw [dif_pos hmem]
    have hsi : GatherDims.siIdx (s := ⟨2, ![N, H]⟩) (si := ⟨2, ![E, 1]⟩) (t := ⟨2, ![E, H]⟩)
        ⟨[1], [0], [], sb, [0], 1, ![1, H], wf⟩ y
        ⟨List.idxOf (0 : Fin 2) [0], List.idxOf_lt_length_iff.2 hmem⟩ = ix2 (y 0) (0 : Fin 1) := by
      funext b; refine Fin.ext ?_
      match b with
      | ⟨0, _⟩ => rfl
      | ⟨1, _⟩ => rfl
    rw [hsi]
    rfl
  | ⟨1, _⟩ =>
    -- axis 1: not in the start index map (start 0), kept whole — the result's offset coordinate
    show GatherDims.start _ y idx 1 + GatherDims.batchCoord _ y 1 + GatherDims.offCoord _ y 1 = (y 1).val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨(show (1 : Fin 2) ∉ ([0] : List (Fin 2)) by decide), List.not_mem_nil⟩)]
    simp only [Nat.zero_add]
    rfl

/-- THE VECTOR GATHER READ AT `e`: the operand at the start index `idx[e, 0]`, read signed and clamped into
    `[0, N - 1]`. -/
theorem gather_vec_apply {N E w : Nat} (hN : 0 < N)
    (d : GatherDims ⟨1, ![N]⟩ ⟨2, ![E, 1]⟩ ⟨1, ![E]⟩)
    (hoff : d.offsetDims = []) (hcol : d.collapsedSliceDims = [0]) (hob : d.operandBatchingDims = [])
    (hmap : d.startIndexMap = [0]) (hiv : d.indexVectorDim = 1) (hsl : d.sliceSizes = ![1])
    (x : (⟨1, ![N]⟩ : Shape).Idx → α) (idx : IVec ⟨2, ![E, 1]⟩ w) (y : (⟨1, ![E]⟩ : Shape).Idx) :
    Host.gather d x idx y = x (ix1 (row N hN idx (y 0))) := by
  exact congrArg x (operandIdx_vec hN d hoff hcol hob hmap hiv hsl idx y)

/-- THE ROW GATHER READ AT `(e, h)`: the operand's row at the start index `idx[e, 0]`, read signed and clamped
    into `[0, N - 1]`, at column `h` — the same row as the vector gather reads. -/
theorem gather_rows_apply {N H E w : Nat} (hN : 0 < N)
    (d : GatherDims ⟨2, ![N, H]⟩ ⟨2, ![E, 1]⟩ ⟨2, ![E, H]⟩)
    (hoff : d.offsetDims = [1]) (hcol : d.collapsedSliceDims = [0]) (hob : d.operandBatchingDims = [])
    (hmap : d.startIndexMap = [0]) (hiv : d.indexVectorDim = 1) (hsl : d.sliceSizes = ![1, H])
    (X : (⟨2, ![N, H]⟩ : Shape).Idx → α) (idx : IVec ⟨2, ![E, 1]⟩ w) (y : (⟨2, ![E, H]⟩ : Shape).Idx) :
    Host.gather d X idx y = X (ix2 (row N hN idx (y 0)) (y 1)) := by
  exact congrArg X (operandIdx_rows hN d hoff hcol hob hmap hiv hsl idx y)

end GatherRows

end
-- ==== Proof.LibGatherPlane.lean ====
/-
  A gather of COLUMNS of a stack of one-entry-deep matrices, read at an index.

  Indexing `W : [A, N, 1]` as `W[:, idx, 0]` with an integer vector `idx : [E]` lowers to a `stablehlo.gather`
  whose start indices have shape `[E, 2]` — the index vector on axis 1 with two components, `idx[e]` and a zero,
  mapped to operand axes 1 and 2 —, operand axes 1 and 2 collapsed (slice size 1 there), operand axis 0 kept whole
  (slice size `A`) as the result's one offset axis, no batching axes; the result has shape `[A, E]`.

  StableHLO reads every start index as a signed integer and clamps it so that the slice fits. On axis 1 the slice
  has size 1, so the start `idx[e, 0]` is clamped into `[0, N - 1]`; on axis 2 the operand has extent 1, so whatever
  the second component holds the start is 0. Result element `(p, e)` is therefore `W[p, clamp idx[e,0], 0]`:
  the same clamped position a plain `x[idx]` of a length-`N` vector reads.

  The statement takes an arbitrary record of dimension numbers with its fields' values as hypotheses (each `rfl`
  at a literal record); the proof computes StableHLO's operand index axis by axis.
-/
import Idealize.ShloMosaic.Lib.ValueIdx

noncomputable section

namespace GatherPlane

open Idealize.ShloMosaic Idealize.ShloMosaic.ValueIdx

variable {α : Type}

/-- The column that result position `e` reads: the first component of its start index, read as a signed integer
    and clamped into `[0, N - 1]`. -/
def col (N : Nat) (hN : 0 < N) {E w : Nat} (idx : IVec ⟨2, ![E, 2]⟩ w) (e : Fin E) : Fin N :=
  ⟨min (idx (ix2 e (0 : Fin 2))).toInt.toNat (N - 1), by omega⟩

theorem col_val (N : Nat) (hN : 0 < N) {E w : Nat} (idx : IVec ⟨2, ![E, 2]⟩ w) (e : Fin E) :
    (col N hN idx e).val = min (idx (ix2 e (0 : Fin 2))).toInt.toNat (N - 1) := rfl

/-- As an operand index: result position `(p, e)` reads the operand at `(p, col e, 0)`. -/
theorem operandIdx_plane {A N E w : Nat} (hN : 0 < N)
    (d : GatherDims ⟨3, ![A, N, 1]⟩ ⟨2, ![E, 2]⟩ ⟨2, ![A, E]⟩)
    (hoff : d.offsetDims = [0]) (hcol : d.collapsedSliceDims = [1, 2]) (hob : d.operandBatchingDims = [])
    (hmap : d.startIndexMap = [1, 2]) (hiv : d.indexVectorDim = 1) (hsl : d.sliceSizes = ![A, 1, 1])
    (idx : IVec ⟨2, ![E, 2]⟩ w) (y : (⟨2, ![A, E]⟩ : Shape).Idx) :
    d.operandIdx y idx = ix3 (y 0) (col N hN idx (y 1)) (0 : Fin 1) := by
  obtain ⟨od, cd, ob, sb, sm, iv, ss, wf⟩ := d
  simp only at hoff hcol hob hmap hiv hsl
  subst hoff hcol hob hmap hiv hsl
  funext a
  refine Fin.ext ?_
  match a with
  | ⟨0, _⟩ =>
    -- axis 0: not named by the start index map (start 0), kept whole: the result's offset coordinate
    show GatherDims.start _ y idx 0 + GatherDims.batchCoord _ y 0 + GatherDims.offCoord _ y 0 = (y 0).val
    rw [GatherDims.batchCoord_eq_zero _ _ _ List.not_mem_nil]
    unfold GatherDims.start
    rw [dif_neg (show (0 : Fin 3) ∉ ([1, 2] : List (Fin 3)) by decide)]
    unfold GatherDims.offCoord
    rw [dif_pos ((GatherDims.mem_sKept _ _).mpr
      ⟨(show (0 : Fin 3) ∉ ([1, 2] : List (Fin 3)) by decide), List.not_mem_nil⟩)]
    simp only [Nat.zero_add]
    rfl
  | ⟨1, _⟩ =>
    -- axis 1: collapsed, first in the start index map: the clamped first component
    show GatherDims.start _ y idx 1 + GatherDims.batchCoord _ y 1 + GatherDims.offCoord _ y 1 = _
    rw [GatherDims.batchCoord_eq_zero _ _ _ List.not_mem_nil,
      GatherDims.offCoord_eq_zero _ _ _ (fun h => ((GatherDims.mem_sKept _ _).mp h).1 (show (1 : Fin 3) ∈ ([1, 2] : List (Fin 3)) by decide))]
    simp only [Nat.add_zero]
    unfold GatherDims.start
    have hmem : (1 : Fin 3) ∈ ([1, 2] : List (Fin 3)) := by decide
    rw [dif_pos hmem]
    have hsi : GatherDims.siIdx (s := ⟨3, ![A, N, 1]⟩) (si := ⟨2, ![E, 2]⟩) (t := ⟨2, ![A, E]⟩)
        ⟨[0], [1, 2], [], sb, [1, 2], 1, ![A, 1, 1], wf⟩ y
        ⟨List.idxOf (1 : Fin 3) [1, 2], List.idxOf_lt_length_iff.2 hmem⟩ = ix2 (y 1) (0 : Fin 2) := by
      funext b; refine Fin.ext ?_
      match b with
      | ⟨0, _⟩ => rfl
      | ⟨1, _⟩ => rfl
    rw [hsi]
    rfl
  | ⟨2, _⟩ =>
    -- axis 2: collapsed, of extent 1: the start is clamped into [0, 0]
    show GatherDims.start _ y idx 2 + GatherDims.batchCoord _ y 2 + GatherDims.offCoord _ y 2 = 0
    rw [GatherDims.batchCoord_eq_zero _ _ _ List.not_mem_nil,
      GatherDims.offCoord_eq_zero _ _ _ (fun h => ((GatherDims.mem_sKept _ _).mp h).1 (show (2 : Fin 3) ∈ ([1, 2] : List (Fin 3)) by decide))]
    simp only [Nat.add_zero]
    unfold GatherDims.start
    have hmem : (2 : Fin 3) ∈ ([1, 2] : List (Fin 3)) := by decide
    rw [dif_pos hmem]
    exact Nat.le_zero.mp (Nat.min_le_right _ _)

/-- THE GATHER READ AT `(p, e)`: the operand at row `p`, the clamped column of position `e`, depth 0. -/
theorem gather_plane_apply {A N E w : Nat} (hN : 0 < N)
    (d : GatherDims ⟨3, ![A, N, 1]⟩ ⟨2, ![E, 2]⟩ ⟨2, ![A, E]⟩)
    (hoff : d.offsetDims = [0]) (hcol : d.collapsedSliceDims = [1, 2]) (hob : d.operandBatchingDims = [])
    (hmap : d.startIndexMap = [1, 2]) (hiv : d.indexVectorDim = 1) (hsl : d.sliceSizes = ![A, 1, 1])
    (W : (⟨3, ![A, N, 1]⟩ : Shape).Idx → α) (idx : IVec ⟨2, ![E, 2]⟩ w) (y : (⟨2, ![A, E]⟩ : Shape).Idx) :
    Host.gather d W idx y = W (ix3 (y 0) (col N hN idx (y 1)) (0 : Fin 1)) := by
  exact congrArg W (operandIdx_plane hN d hoff hcol hob hmap hiv hsl idx y)

end GatherPlane

end
-- ==== Proof.FiniteInputs.lean ====
/-
  From the precondition to real numbers.

  The precondition says that every entry of the two float arguments has absolute value below plus infinity. Over
  the extended reals an entry is minus infinity, a real number, or plus infinity, and the absolute value of either
  infinity is plus infinity, which is not below itself: so every entry of both float arguments is a real number.
  (The integer argument is not constrained.)
-/
import proofs.«159984_j39934605918594_2_alg».proof.Pre_finite_inputs
import proofs.«159984_j39934605918594_2_alg».proof.Proof.RowFit
import Idealize.ShloMosaic.Lib.ReduceAll
import Idealize.ShloMosaic.Lib.ValueIdx

noncomputable section

open Idealize.ShloMosaic Idealize.ShloMosaic.ValueIdx

namespace Cert.FiniteInputs

/-- The word the precondition compares against denotes plus infinity. -/
theorem inf_val : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [inf_val] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

variable [Cert.Pre_finite_inputs.Facts]

/-- Under the precondition every entry of both float arguments is a real number. -/
theorem real_entries (x : FVec Ideal Cert.Pre_finite_inputs.S4096x8192 .f32)
    (w : FVec Ideal Cert.Pre_finite_inputs.S1000x1000x1 .f32) (tl : IVec Cert.Pre_finite_inputs.S4096 32)
    (h : Cert.Pre_finite_inputs.fn (F := Ideal) x w tl = fun _ => 1#1) :
    (∀ i, ∃ r : ℝ, x i = (r : EReal)) ∧ (∀ i, ∃ r : ℝ, w i = (r : EReal)) := by
  have h0 := congrFun h ix0
  dsimp only [Cert.Pre_finite_inputs.fn] at h0
  obtain ⟨hx, hw⟩ := IntOp.andi_eq_one.1 h0
  refine ⟨fun i => real_of_abs_lt (x i) ?_, fun i => real_of_abs_lt (w i) ?_⟩
  · exact Host.reduce_andi_all _ _ _ _ ix0 hx i
  · exact Host.reduce_andi_all _ _ _ _ ix0 hw i

end Cert.FiniteInputs

end
-- ==== Proof.Labels.lean ====
/-
  The label value of a row and the label mean: the same numbers in both programs, and real numbers.

  Both programs look the label `l` of a row up in row 0 of the weight array `W : [1000, 1000, 1]`. A negative
  label is first wrapped by adding the class count 1000; then the lookup clamps the position into [0, 999], as
  every StableHLO gather clamps its start indices. The kernel's program slices row 0 out as a vector of 1000
  entries and gathers from that vector; the reference gathers the column `W[:, l, 0]` for every row of `W` and
  then keeps row 0. Either way the value is `W[0, p, 0]` at the same wrapped and clamped position `p`.
  The label mean is, in both, zero plus the sum of the 4096 label values, over 4096: the same function of equal
  label vectors. Each label value is an entry of `W`, so real under the precondition; then so is the mean.
-/
import proofs.«159984_j39934605918594_2_alg».proof.Proof.Gen.KernelIdeal.Frame
import proofs.«159984_j39934605918594_2_alg».proof.Proof.Gen.ReferenceIdeal.Read
import proofs.«159984_j39934605918594_2_alg».proof.Proof.LibGatherRows
import proofs.«159984_j39934605918594_2_alg».proof.Proof.LibGatherPlane
import proofs.«159984_j39934605918594_2_alg».proof.Proof.LibRowBroadcast
import proofs.«159984_j39934605918594_2_alg».proof.Proof.FiniteInputs
import Idealize.ShloMosaic.Lib.StableHlo.Run

noncomputable section

open Idealize.ShloMosaic Idealize.ShloMosaic.TcCoe Idealize.SL.Sem Idealize.ShloMosaic.ValueIdx

namespace Cert.Labels

open Cert.KernelIdeal Cert.KernelIdeal.Gen

/-! ## The kernel's host prefix -/

/-- The labels with a negative one wrapped by the class count. -/
def wrapK (tl : IVec S4096 32) : IVec S4096 32 :=
  select (cmpi .slt tl (broadcastInDim S4096 ![] bcast_S_S4096 (constantI S_ 32 0#32)))
    (addi tl (broadcastInDim S4096 ![] bcast_S_S4096 (constantI S_ 32 1000#32))) tl

/-- The label values as the kernel's program computes them: row 0 of `W` as a vector, gathered at the labels. -/
def labelsK (w : FVec Ideal S1000x1000x1 .f32) (tl : IVec S4096 32) : FVec Ideal S4096 .f32 :=
  Host.gather gather_S1000_S4096x1_S4096_n_0_n_n_0_1_1
    (shapeCast S1000 (extractStridedSlice S1x1000x1 ![0, 0, 0] w slices_S1000x1000x1_S1x1000x1_0_0_0) shapeCasts_S1x1000x1_S1000)
    (broadcastInDim S4096x1 ![0] bcast_S4096_S4096x1_0 (wrapK tl))

/-- The mean of a label vector as both programs compute it: zero plus the sum, over 4096. -/
def meanK (y : FVec Ideal S4096 .f32) : FVec Ideal S_ .f32 :=
  Host.divf (F := Ideal) (Host.reduceAdd (F := Ideal) y (constant (F := Ideal) S_ .f32 0x00000000#32) reducesTo_S4096_S_d0 h_S_)
    (constant (F := Ideal) S_ .f32 0x45800000#32)

variable (m : (ℓ : Loc nD τ sig) → Buf (Elt Ideal) ℓ)

/-- The label column the region stages is the label vector as a column. -/
theorem V_labels (c : Dev nD) :
    (V m c main_v11 : S4096x1.Idx → Ideal .f32)
      = shapeCast S4096x1 (labelsK (m ((c : Thread nD τ).loc main_arg1)) (m ((c : Thread nD τ).loc main_arg2))) shapeCasts_S4096_S4096x1 := by
  dsimp only [V, hostOps0]
  after_results
  rfl

/-- The label mean the region stages is the mean of that vector, as a 1 by 1 array. -/
theorem V_mean (c : Dev nD) :
    (V m c main_v12 : S1x1.Idx → Ideal .f32)
      = shapeCast S1x1 (meanK (labelsK (m ((c : Thread nD τ).loc main_arg1)) (m ((c : Thread nD τ).loc main_arg2)))) shapeCasts_S_S1x1 := by
  dsimp only [V, hostOps0]
  after_results
  rfl

/-- The position the kernel's lookup reads for row `R`: its wrapped label clamped into [0, 999]. -/
def posK (tl : IVec S4096 32) (R : Fin 4096) : Fin 1000 :=
  GatherRows.row 1000 (by decide) (broadcastInDim S4096x1 ![0] bcast_S4096_S4096x1_0 (wrapK tl)) R

/-- The kernel's label value of row `R` is `W[0, posK R, 0]`. -/
theorem labelsK_apply (w : FVec Ideal S1000x1000x1 .f32) (tl : IVec S4096 32) (R : Fin 4096) :
    labelsK w tl (ix1 R) = w (ix3 (0 : Fin 1000) (posK tl R) (0 : Fin 1)) := by
  unfold labelsK
  refine (GatherRows.gather_vec_apply (by decide) gather_S1000_S4096x1_S4096_n_0_n_n_0_1_1 rfl rfl rfl rfl rfl rfl _ _ (ix1 R)).trans ?_
  refine (shapeCast_apply _ shapeCasts_S1x1000x1_S1000 (ix1 (posK tl R)) (ix3 (0 : Fin 1) (posK tl R) (0 : Fin 1)) ?_).trans ?_
  · rw [Shape.rowMajor_val_three, Shape.rowMajor_val_one]
    show (0 * 1000 + (posK tl R).val) * 1 + 0 = (posK tl R).val
    omega
  · refine extractStridedSlice_apply ![0, 0, 0] w slices_S1000x1000x1_S1x1000x1_0_0_0 (ix3 (0 : Fin 1) (posK tl R) (0 : Fin 1))
      (ix3 (0 : Fin 1000) (posK tl R) (0 : Fin 1)) fun a => ?_
    match a with
    | ⟨0, _⟩ => show 0 = 0 + 0; rfl
    | ⟨1, _⟩ => show (posK tl R).val = 0 + (posK tl R).val; omega
    | ⟨2, _⟩ => show 0 = 0 + 0; rfl

/-! ## The reference's label vector -/

open Cert.ReferenceIdeal.Read in
/-- The position the reference's lookup reads for row `R`. -/
def posR (tl : IVec S4096 32) (R : Fin 4096) : Fin 1000 :=
  GatherPlane.col 1000 (by decide) (val_main_v9 (F := Ideal) tl) R

open Cert.ReferenceIdeal.Read in
/-- The reference's label value of row `R` is `W[0, posR R, 0]`. -/
theorem labelsR_apply (w : FVec Ideal S1000x1000x1 .f32) (tl : IVec S4096 32) (R : Fin 4096) :
    val_main_v12 (F := Ideal) w tl (ix1 R) = w (ix3 (0 : Fin 1000) (posR tl R) (0 : Fin 1)) := by
  rw [val_main_v12_apply, val_main_v11_apply]
  have hi : idx_main_v11 (idx_main_v12 (ix1 R)) = ix2 (0 : Fin 1000) R := by
    funext a; apply Fin.ext
    match a with
    | ⟨0, _⟩ => rfl
    | ⟨1, _⟩ => show R.val % 4096 = R.val; exact Nat.mod_eq_of_lt R.isLt
  rw [hi]
  unfold val_main_v10
  exact GatherPlane.gather_plane_apply (by decide) Cert.ReferenceIdeal.gather_S1000x1000x1_S4096x2_S1000x4096_0_12_n_n_12_1_100011
    rfl rfl rfl rfl rfl rfl w _ (ix2 (0 : Fin 1000) R)

open Cert.ReferenceIdeal.Read in
/-- Both lookups read the same position: the same wrapped label, clamped the same way. -/
theorem pos_eq (tl : IVec S4096 32) (R : Fin 4096) : posK tl R = posR tl R := by
  apply Fin.ext
  show min (broadcastInDim S4096x1 ![0] bcast_S4096_S4096x1_0 (wrapK tl) (ix2 R (0 : Fin 1))).toInt.toNat (1000 - 1)
    = min (val_main_v9 (F := Ideal) tl (ix2 R (0 : Fin 2))).toInt.toNat (1000 - 1)
  have hK : broadcastInDim S4096x1 ![0] bcast_S4096_S4096x1_0 (wrapK tl) (ix2 R (0 : Fin 1)) = wrapK tl (ix1 R) :=
    RowBroadcast.col_apply bcast_S4096_S4096x1_0 (wrapK tl) R 0
  have hR : val_main_v9 (F := Ideal) tl (ix2 R (0 : Fin 2)) = val_main_v4 (F := Ideal) tl (ix1 R) := by
    unfold val_main_v9
    refine (concatenate_pair_apply_left (t := ⟨2, ![4096, 2]⟩) (s₁ := ⟨2, ![4096, 1]⟩) (s₂ := ⟨2, ![4096, 1]⟩) (1 : Fin 2) _ _ _ (ix2 R (0 : Fin 2)) rfl (ix2 R (0 : Fin 1)) fun b => ?_).trans ?_
    · match b with
      | ⟨0, _⟩ => rfl
      | ⟨1, _⟩ => rfl
    · rw [val_main_v7_apply]
      exact congrArg _ (funext fun a => by match a with | ⟨0, _⟩ => rfl)
  rw [hK, hR]
  rfl

open Cert.ReferenceIdeal.Read in
/-- So the two label vectors are one. -/
theorem labels_eq (w : FVec Ideal S1000x1000x1 .f32) (tl : IVec S4096 32) :
    labelsK w tl = val_main_v12 (F := Ideal) w tl := by
  funext j
  obtain ⟨R, rfl⟩ : ∃ R : Fin 4096, j = ix1 R := ⟨j 0, eq_ix1 j⟩
  rw [labelsK_apply, labelsR_apply, pos_eq]

open Cert.ReferenceIdeal.Read in
/-- And the two means: the same function of the label vector. -/
theorem mean_eq (w : FVec Ideal S1000x1000x1 .f32) (tl : IVec S4096 32) :
    meanK (labelsK w tl) = val_main_v17 (F := Ideal) w tl := by
  rw [labels_eq]
  rfl

/-! ## Real under the precondition -/

open Cert.ReferenceIdeal.Read in
/-- Every label value is an entry of `W`, so a real number when `W`'s entries are. -/
theorem labels_real (w : FVec Ideal S1000x1000x1 .f32) (tl : IVec S4096 32) (hw : ∀ i, ∃ r : ℝ, w i = (r : EReal))
    (R : Fin 4096) : ∃ y : ℝ, val_main_v12 (F := Ideal) w tl (ix1 R) = (y : EReal) := by
  rw [labelsR_apply]; exact hw _

open Cert.ReferenceIdeal.Read in
/-- The label mean is then real too: a real sum over 4096. -/
theorem mean_real (w : FVec Ideal S1000x1000x1 .f32) (tl : IVec S4096 32) (hw : ∀ i, ∃ r : ℝ, w i = (r : EReal)) :
    ∃ yb : ℝ, val_main_v17 (F := Ideal) w tl ix0 = (yb : EReal) := by
  have hy : ∀ j : Cert.ReferenceIdeal.S4096.Idx, ∃ y : ℝ, val_main_v12 (F := Ideal) w tl j = (y : EReal) := fun j => by
    obtain ⟨R, rfl⟩ : ∃ R : Fin 4096, j = ix1 R := ⟨j 0, eq_ix1 j⟩
    exact labels_real w tl hw R
  choose yr hyr using hy
  refine ⟨(∑ j, yr j) * (1 / 4096), ?_⟩
  rw [val_main_v17_apply, val_main_v16_apply]
  simp only [hyr]
  rw [RowFit.coe_sum]
  show Ideal.div (Ideal.ofBits .f32 0x00000000#32 + _) (Ideal.ofBits .f32 0x45800000#32) = _
  rw [Ideal.ofBits_zero_f32, zero_add, RowFit.batch_val, Ideal.div_coe (by norm_num : (4096 : ℝ) ≠ 0), ← EReal.coe_mul]

end Cert.Labels

end
-- ==== Proof.RefRow.lean ====
/-
  The reference's result at an entry, as the fitted value of a row.

  Read one operation at a time at row `R`: the row sum, the row mean (the sum over 4096), the deviations from
  it, their squares and their products with `y - ybar` summed along the row, the quotient, and the closing
  `beta · s + (ybar - beta · mean)`; the two broadcasts and the transpose that follow put that number at every
  column of row `R`. So entry `(R, col)` of the result is `RowFit.fromRow` of row `R` of the input matrix, the
  row's label value and the label mean.
-/
import proofs.«159984_j39934605918594_2_alg».proof.Proof.Gen.ReferenceIdeal.Read
import proofs.«159984_j39934605918594_2_alg».proof.Proof.RowFit
import Idealize.ShloMosaic.Lib.ValueIdx

noncomputable section

open Idealize.ShloMosaic Idealize.ShloMosaic.ValueIdx

namespace Cert.RefRow

open Cert.ReferenceIdeal Cert.ReferenceIdeal.Read

variable (x0 : FVec Ideal S4096x8192 .f32) (x1 : FVec Ideal S1000x1000x1 .f32) (x2 : IVec S4096 32)

/-- The row sum. -/
theorem sum_apply (R : Fin 4096) :
    val_main_v13 (F := Ideal) x0 (ix1 R) = RowFit.rowSum (fun J : Fin 8192 => x0 (ix2 R J)) := by
  rw [val_main_v13_apply]
  unfold RowFit.rowSum
  refine congrArg₂ (· + ·) rfl (Finset.sum_congr rfl fun k _ => congrArg x0 ?_)
  funext a
  match a with
  | ⟨0, _⟩ => rfl
  | ⟨1, _⟩ => rfl

/-- The row mean. -/
theorem mean_apply (R : Fin 4096) :
    val_main_v15 (F := Ideal) x0 (ix1 R) = RowFit.mean (RowFit.rowSum (fun J : Fin 8192 => x0 (ix2 R J))) := by
  rw [val_main_v15_apply, sum_apply]
  rfl

/-- An entry's deviation from its row's mean. -/
theorem dev_apply (R : Fin 4096) (k : Fin 8192) :
    val_main_v20 (F := Ideal) x0 (ix2 R k)
      = x0 (ix2 R k) - RowFit.mean (RowFit.rowSum (fun J : Fin 8192 => x0 (ix2 R J))) := by
  rw [val_main_v20_apply, val_main_v19_apply, val_main_v18_apply]
  have hi : idx_main_v18 (idx_main_v19 (ix2 R k)) = ix1 R := by
    funext a
    match a with
    | ⟨0, _⟩ => rfl
  rw [hi, mean_apply]
  rfl

/-- The summed squared deviations. -/
theorem sx_apply (R : Fin 4096) :
    val_main_v22 (F := Ideal) x0 (ix1 R) = RowFit.rowSx (fun J : Fin 8192 => x0 (ix2 R J)) := by
  rw [val_main_v22_apply]
  unfold RowFit.rowSx
  refine congrArg₂ (· + ·) rfl (Finset.sum_congr rfl fun k _ => ?_)
  have hi : idx_main_v22 (ix1 R) k = ix2 R k := by
    funext a
    match a with
    | ⟨0, _⟩ => rfl
    | ⟨1, _⟩ => rfl
  rw [hi, val_main_v21_apply, dev_apply]
  rfl

/-- A label value less the label mean. -/
theorem diff_apply (R : Fin 4096) :
    val_main_v24 (F := Ideal) x1 x2 (ix1 R)
      = val_main_v12 (F := Ideal) x1 x2 (ix1 R) - val_main_v17 (F := Ideal) x1 x2 ix0 := by
  rw [val_main_v24_apply, val_main_v23_apply]
  rfl

/-- The summed deviations, each times the label's deviation. -/
theorem sxy_apply (R : Fin 4096) :
    val_main_v28 (F := Ideal) x0 x1 x2 (ix1 R)
      = RowFit.rowSxy (fun J : Fin 8192 => x0 (ix2 R J)) (val_main_v12 (F := Ideal) x1 x2 (ix1 R))
          (val_main_v17 (F := Ideal) x1 x2 ix0) := by
  rw [val_main_v28_apply]
  unfold RowFit.rowSxy
  refine congrArg₂ (· + ·) rfl (Finset.sum_congr rfl fun k _ => ?_)
  have hi : idx_main_v28 (ix1 R) k = ix2 R k := by
    funext a
    match a with
    | ⟨0, _⟩ => rfl
    | ⟨1, _⟩ => rfl
  have hj : idx_main_v25 (idx_main_v26 (ix2 R k)) = ix1 R := by
    funext a
    match a with
    | ⟨0, _⟩ => rfl
  rw [hi, val_main_v27_apply, dev_apply, val_main_v26_apply, val_main_v25_apply, hj, diff_apply]
  rfl

/-- The fitted value of row `R`. -/
theorem row_apply (R : Fin 4096) :
    val_main_v34 (F := Ideal) x0 x1 x2 (ix1 R)
      = RowFit.fromRow (fun J : Fin 8192 => x0 (ix2 R J)) (val_main_v12 (F := Ideal) x1 x2 (ix1 R))
          (val_main_v17 (F := Ideal) x1 x2 ix0) := by
  rw [val_main_v34_apply, val_main_v33_apply, val_main_v32_apply, val_main_v31_apply, val_main_v30_apply,
    val_main_v29_apply, sxy_apply, sx_apply, mean_apply, sum_apply]
  rfl

/-- THE RESULT at `(R, col)`: the fitted value of row `R`, whatever the column. -/
theorem out_apply (R : Fin 4096) (col : Fin 1000) :
    val_main_v37 (F := Ideal) x0 x1 x2 (ix2 R col)
      = RowFit.fromRow (fun J : Fin 8192 => x0 (ix2 R J)) (val_main_v12 (F := Ideal) x1 x2 (ix1 R))
          (val_main_v17 (F := Ideal) x1 x2 ix0) := by
  rw [val_main_v37_apply, val_main_v36_apply, val_main_v35_apply]
  have hi : idx_main_v35 (idx_main_v36 (idx_main_v37 (ix2 R col))) = ix1 R := by
    funext a
    match a with
    | ⟨0, _⟩ => rfl
  rw [hi, row_apply]

end Cert.RefRow

end
-- ==== Proof.lean ====
/-
  A least-squares line fitted per row: the fused kernel against the plain reference, over the extended reals.

  For every row `i` of the input matrix `x : [4096, 8192]` both programs compute
      s = Σ_j x[i,j],  a = s / 4096,  Sx = Σ_j (x[i,j] - a)²,  Sxy = Σ_j (x[i,j] - a)·(y[i] - ybar),
      beta = Sxy / Sx,  upd[i] = beta·s + (ybar - beta·a),
  where `y[i]` is the entry of row 0 of the weight array at the row's (wrapped, clamped) label and `ybar` the mean
  of the `y[i]`; the result holds `upd[i]` in all 1000 columns of row `i`.

  The reference forms `Sx` and `Sxy` as those sums. The kernel streams the matrix once in [512, 2048] blocks,
  keeps per row only the running sum and the running sum of squares `q`, and at the last column block of a row
  tile uses  Sx = q - (2a)·s + (8192·a)·a  and  Sxy = (y - ybar)·(s - 8192·a).  These agree with the sums by
  expanding the square and pulling the common factor out — distributivity, which needs the entries to be real
  numbers: that is what the precondition (every float input finite) gives. Everything else is re-association of
  sums, re-indexing, and the same operations applied to equal numbers.

  How the pieces fit: the kernel's run ends with its result array at `Whole.G` of the arrays its region finds
  (the accumulators followed point by point, the last column steps' blocks tiling the array); the reference's
  run ends at its operations' composed value, read at an entry as `RowFit.fromRow` of the row; the label values
  and their mean are the same numbers in both (`Labels`); and on real rows `RowFit.fromRow_eq` joins the two.
  The three frames are the generated runs; the idealization rewrote nothing.
-/
import proofs.«159984_j39934605918594_2_alg».proof.Defs
import proofs.«159984_j39934605918594_2_alg».proof.Proof.Gen.Kernel
import proofs.«159984_j39934605918594_2_alg».proof.Proof.Gen.Kernel.Skeleton
import proofs.«159984_j39934605918594_2_alg».proof.Proof.Gen.Kernel.Launch
import proofs.«159984_j39934605918594_2_alg».proof.Proof.Gen.Kernel.Points
import proofs.«159984_j39934605918594_2_alg».proof.Proof.Gen.Kernel.Frame
import proofs.«159984_j39934605918594_2_alg».proof.Proof.Gen.KernelIdeal
import proofs.«159984_j39934605918594_2_alg».proof.Proof.Gen.KernelIdeal.Skeleton
import proofs.«159984_j39934605918594_2_alg».proof.Proof.Gen.KernelIdeal.Launch
import proofs.«159984_j39934605918594_2_alg».proof.Proof.Gen.KernelIdeal.Points
import proofs.«159984_j39934605918594_2_alg».proof.Proof.Gen.KernelIdeal.Frame
import proofs.«159984_j39934605918594_2_alg».proof.Proof.Gen.ReferenceIdeal
import proofs.«159984_j39934605918594_2_alg».proof.Proof.Gen.Pre_finite_inputs
import proofs.«159984_j39934605918594_2_alg».proof.Proof.Gen.KernelIdeal.Value
import proofs.«159984_j39934605918594_2_alg».proof.Proof.Gen.ReferenceIdeal.Run
import proofs.«159984_j39934605918594_2_alg».proof.Proof.Gen.ReferenceIdeal.Read
import proofs.«159984_j39934605918594_2_alg».proof.Proof.KernelWhole
import proofs.«159984_j39934605918594_2_alg».proof.Proof.Labels
import proofs.«159984_j39934605918594_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two result arrays are one function of the arguments -/

section Bridge

open Cert.KernelIdeal Cert.KernelIdeal.Gen Cert.KernelIdeal.Accum

/-- Under the precondition, entry by entry, the kernel's result array is the reference's composed value of the
    same argument arrays. -/
theorem value_eq (m : (ℓ : Loc nD τ sig) → Buf (Elt Ideal) ℓ) (hpre : Cert.Pre_KernelIdeal m) (c : Dev nD) :
    Whole.G (matX m c) (colY m c) (meanY m c)
      = Cert.ReferenceIdeal.Read.val_main_v37 (F := Ideal) (m ((c : Thread nD τ).loc main_arg0))
          (m ((c : Thread nD τ).loc main_arg1)) (m ((c : Thread nD τ).loc main_arg2)) := by
  obtain ⟨hx, hw⟩ := Cert.FiniteInputs.real_entries _ _ _ (hpre c)
  funext I
  obtain ⟨R, col, rfl⟩ : ∃ (R : Fin 4096) (col : Fin 1000), I = ix2 R col := ⟨I 0, I 1, eq_ix2 I⟩
  rw [Cert.RefRow.out_apply]
  show Whole.rowVal (matX m c) (colY m c) (meanY m c) R = _
  unfold Whole.rowVal
  -- the row's label value and the label mean are the reference's
  have hy : colY m c (ix2 R (0 : Fin 1))
      = Cert.ReferenceIdeal.Read.val_main_v12 (F := Ideal) (m ((c : Thread nD τ).loc main_arg1))
          (m ((c : Thread nD τ).loc main_arg2)) (ix1 R) := by
    show (V m c main_v11 : S4096x1.Idx → Ideal .f32) (ix2 R (0 : Fin 1)) = _
    rw [Cert.Labels.V_labels, RowBroadcast.reshape_col_apply, Cert.Labels.labels_eq]
  have hyb : meanY m c (ix2 (0 : Fin 1) (0 : Fin 1))
      = Cert.ReferenceIdeal.Read.val_main_v17 (F := Ideal) (m ((c : Thread nD τ).loc main_arg1))
          (m ((c : Thread nD τ).loc main_arg2)) ix0 := by
    show (V m c main_v12 : S1x1.Idx → Ideal .f32) (ix2 (0 : Fin 1) (0 : Fin 1)) = _
    rw [Cert.Labels.V_mean, Cert.Labels.mean_eq]
    unfold shapeCast
    exact congrArg _ (funext fun a => a.elim0)
  have hX : matX m c = m ((c : Thread nD τ).loc main_arg0) := V_main_arg0 m c
  rw [hy, hyb, hX]
  -- all the numbers involved are real
  choose xr hxr using hx
  obtain ⟨y, hyr⟩ := Cert.Labels.labels_real _ (m ((c : Thread nD τ).loc main_arg2)) hw R
  obtain ⟨yb, hybr⟩ := Cert.Labels.mean_real _ (m ((c : Thread nD τ).loc main_arg2)) hw
  rw [hyr, hybr]
  have hrow : (fun J : Fin 8192 => m ((c : Thread nD τ).loc main_arg0) (ix2 R J))
      = fun J : Fin 8192 => ((xr (ix2 R J) : ℝ) : EReal) := funext fun J => hxr _
  rw [hrow]
  exact (RowFit.fromRow_eq (fun J : Fin 8192 => xr (ix2 R J)) y yb).symm

end Bridge

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from memories agreeing on the arguments, with the result at one and the same array. -/
theorem algebraic : Cert.algebraic_KernelIdeal_ReferenceIdeal := by
  intro m ρ m' ρ' hpre hagree
  refine ⟨fun c => Cert.KernelIdeal.Whole.G (Cert.KernelIdeal.Accum.matX m c) (Cert.KernelIdeal.Accum.colY m c)
    (Cert.KernelIdeal.Accum.meanY m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, (hagree c).1, (hagree c).2.1, (hagree c).2.2]
  exact (value_eq m hpre c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
